-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S5000x128 : Shape := ⟨2, ![5000, 128]⟩
abbrev S800000x128 : Shape := ⟨2, ![800000, 128]⟩
abbrev S50000x1 : Shape := ⟨2, ![50000, 1]⟩
abbrev S1x128 : Shape := ⟨2, ![1, 128]⟩
abbrev S5000x1 : Shape := ⟨2, ![5000, 1]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 106
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S800000, .f32⟩
  | .hbm, ⟨45, _⟩ => ⟨S50000, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S800000x1, .f32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S50000x1, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S800000x1, .f32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S50000x1, .f32⟩
  | .hbm, ⟨84, _⟩ => ⟨S1x128, .f32⟩
  | .hbm, ⟨85, _⟩ => ⟨S50000x128, .f32⟩
  | .hbm, ⟨86, _⟩ => ⟨S50000x64, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x64, .f32⟩
  | .hbm, ⟨96, _⟩ => ⟨S800000x1, .f32⟩
  | .hbm, ⟨97, _⟩ => ⟨S800000x64, .f32⟩
  | .hbm, ⟨98, _⟩ => ⟨S800000x64, .f32⟩
  | .hbm, ⟨99, _⟩ => ⟨S_, .f32⟩
  | .hbm, ⟨100, _⟩ => ⟨S50000x64, .f32⟩
  | .hbm, ⟨101, _⟩ => ⟨S800000x1, .i32⟩
  | .hbm, ⟨102, _⟩ => ⟨S50000x64, .f32⟩
  | .hbm, ⟨103, _⟩ => ⟨S50000x1, .f32⟩
  | .hbm, ⟨104, _⟩ => ⟨S1x64, .f32⟩
  | .hbm, ⟨105, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v78) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v79) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v80) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 200
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S50000, .f32⟩
  | 14 => ⟨S_, .f32⟩
  | 15 => ⟨S800000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S50000, .f32⟩
  | 25 => ⟨S50000, .f32⟩
  | 26 => ⟨S50000x128, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x1, .f32⟩
  | 56 => ⟨S800000x128, .f32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000, .f32⟩
  | 63 => ⟨S50000x1, .f32⟩
  | 64 => ⟨S50000x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S1x800000, .i32⟩
  | 74 => ⟨S800000, .i32⟩
  | 75 => ⟨S1x800000, .i32⟩
  | 76 => ⟨S800000, .i32⟩
  | 77 => ⟨S_, .f32⟩
  | 78 => ⟨S50000, .f32⟩
  | 79 => ⟨S_, .f32⟩
  | 80 => ⟨S800000, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S50000, .f32⟩
  | 90 => ⟨S50000, .f32⟩
  | 91 => ⟨S50000x128, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S800000, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S800000x1, .f32⟩
  | 121 => ⟨S800000x128, .f32⟩
  | 122 => ⟨S800000x128, .f32⟩
  | 123 => ⟨S_, .f32⟩
  | 124 => ⟨S50000x128, .f32⟩
  | 125 => ⟨S800000x1, .i32⟩
  | 126 => ⟨S50000x128, .f32⟩
  | 127 => ⟨S50000, .f32⟩
  | _ => ⟨S50000x128, .f32⟩

abbrev hbmTy0_1 (i : Nat) : BufTy := match i % 128 with
  | 0 => ⟨S50000x1, .f32⟩
  | 1 => ⟨S50000x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S50000, .f32⟩
  | 16 => ⟨S_, .f32⟩
  | 17 => ⟨S800000, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S50000, .f32⟩
  | 27 => ⟨S50000, .f32⟩
  | 28 => ⟨S50000x64, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x64, .f32⟩
  | 57 => ⟨S800000x1, .f32⟩
  | 58 => ⟨S800000x64, .f32⟩
  | 59 => ⟨S800000x64, .f32⟩
  | 60 => ⟨S_, .f32⟩
  | 61 => ⟨S50000x64, .f32⟩
  | 62 => ⟨S800000x1, .i32⟩
  | 63 => ⟨S50000x64, .f32⟩
  | 64 => ⟨S50000, .f32⟩
  | 65 => ⟨S50000x1, .f32⟩
  | 66 => ⟨S50000x64, .f32⟩
  | 67 => ⟨S50000x64, .f32⟩
  | 68 => ⟨S50000x64, .f32⟩
  | 69 => ⟨S1x64, .f32⟩
  | 70 => ⟨S50000x64, .f32⟩
  | 71 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call0_cst : Ref sig .tc := ⟨.hbm, 70, rfl⟩
abbrev main_call0_v0 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_c_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_15 : Ref sig .tc := ⟨.hbm, 101, rfl⟩
abbrev main_v74 : Ref sig .tc := ⟨.hbm, 102, rfl⟩
abbrev main_v75 : Ref sig .tc := ⟨.hbm, 103, rfl⟩
abbrev main_c_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_17 : Ref sig .tc := ⟨.hbm, 111, rfl⟩
abbrev main_v82 : Ref sig .tc := ⟨.hbm, 112, rfl⟩
abbrev main_v83 : Ref sig .tc := ⟨.hbm, 113, rfl⟩
abbrev main_c_18 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_19 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_call1_cst : Ref sig .tc := ⟨.hbm, 135, rfl⟩
abbrev main_call1_v0 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_20 : Ref sig .tc := ⟨.hbm, 142, rfl⟩
abbrev main_v108 : Ref sig .tc := ⟨.hbm, 143, rfl⟩
abbrev main_cst_21 : Ref sig .tc := ⟨.hbm, 144, rfl⟩
abbrev main_v109 : Ref sig .tc := ⟨.hbm, 145, rfl⟩
abbrev main_c_22 : Ref sig .tc := ⟨.hbm, 146, rfl⟩
abbrev main_v110 : Ref sig .tc := ⟨.hbm, 147, rfl⟩
abbrev main_v111 : Ref sig .tc := ⟨.hbm, 148, rfl⟩
abbrev main_c_23 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_c_24 : Ref sig .tc := ⟨.hbm, 157, rfl⟩
abbrev main_v119 : Ref sig .tc := ⟨.hbm, 158, rfl⟩
abbrev main_v120 : Ref sig .tc := ⟨.hbm, 159, rfl⟩
abbrev main_c_25 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_c_26 : Ref sig .tc := ⟨.hbm, 166, rfl⟩
abbrev main_v126 : Ref sig .tc := ⟨.hbm, 167, rfl⟩
abbrev main_v127 : Ref sig .tc := ⟨.hbm, 168, rfl⟩
abbrev main_c_27 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_c_28 : Ref sig .tc := ⟨.hbm, 176, rfl⟩
abbrev main_v134 : Ref sig .tc := ⟨.hbm, 177, rfl⟩
abbrev main_v135 : Ref sig .tc := ⟨.hbm, 178, rfl⟩
abbrev main_c_29 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_30 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The kernel program's run, with every buffer named at its end.

  @main is ten segments: four stretches of host operations and six pipelined regions.  The segments chain through the
  contents of the TensorCore's buffers at each boundary, so the run ends with every unscoped buffer of every core at the
  last boundary's contents.  That is stated here for all buffers at once; the result buffer and the argument arrays are
  then read off it.
-/
import proofs.«179435_j14259291423189_1_alg».proof.Proof.Gen.KernelIdeal.Frame

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final state every unscoped buffer of
    every core holds the contents of the last segment boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The run, with the result buffer at the last boundary's contents and the argument arrays as launched. -/
theorem run_result : θ_run defs (onTc (τ := τ) (main (F := F))) ⟨m, fun _ => 0, ρ⟩ (fun r => ∀ c : Dev nD,
      r.2.mem ((c.tc : Thread nD τ).loc main_v80) = W10 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v80 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)
    (run_all m ρ)

end Cert.KernelIdeal.Whole

end
-- ==== Proof.Kept.lean ====
/-
  Buffers that a stretch of the kernel program does not write keep their contents across it.

  The contents of the TensorCore's buffers at the ten segment boundaries are a fold through @main: a stretch of host
  operations changes only the buffers its operations write, a region only its output array.  Read here, for the buffers
  the later layers need again — the two index vectors, the edge weights, the self-loop scale, the weights and
  biases, and each region's product — is that fold walked back to where the buffer was last written.
-/
import proofs.«179435_j14259291423189_1_alg».proof.Proof.Gen.KernelIdeal.Frame

noncomputable section

namespace Cert.KernelIdeal.Whole

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- No operation of the named stretch writes the buffer in the goal: each operation writes one buffer, and it is another. -/
macro "host_keeps " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- Region 0 finds the first argument as launched. -/
theorem entry0_arg0 (c : Dev nD) : W1 m ρ c (Proc.devRef .tc main_arg0) = m ((c : Thread nD τ).loc main_arg0) :=
  (by host_keeps hostOps0 : W1 m ρ c (Proc.devRef .tc main_arg0) = W0 m ρ c (Proc.devRef .tc main_arg0))
/-- Region 0 finds the first weight as launched. -/
theorem entry0_arg2 (c : Dev nD) : W1 m ρ c (Proc.devRef .tc main_arg2) = m ((c : Thread nD τ).loc main_arg2) :=
  (by host_keeps hostOps0 : W1 m ρ c (Proc.devRef .tc main_arg2) = W0 m ρ c (Proc.devRef .tc main_arg2))
/-- Region 0 leaves it as the first stretch wrote it. -/
theorem at2_v1 (c : Dev nD) : W2 m ρ c (Proc.devRef .tc main_v1) = W1 m ρ c (Proc.devRef .tc main_v1) :=
  (W2_of_ne m ρ c main_v1 (by decide))
/-- Still as the first stretch wrote it when the second layer's host operations start. -/
theorem at5_v1 (c : Dev nD) : W5 m ρ c (Proc.devRef .tc main_v1) = W1 m ρ c (Proc.devRef .tc main_v1) :=
  ((W5_of_ne m ρ c main_v1 (by decide)).trans ((W4_of_ne m ρ c main_v1 (by decide)).trans ((by host_keeps hostOps1 : W3 m ρ c (Proc.devRef .tc main_v1) = W2 m ρ c (Proc.devRef .tc main_v1)).trans (W2_of_ne m ρ c main_v1 (by decide)))))
/-- Still as the first stretch wrote it when the third layer's host operations start. -/
theorem at8_v1 (c : Dev nD) : W8 m ρ c (Proc.devRef .tc main_v1) = W1 m ρ c (Proc.devRef .tc main_v1) :=
  ((W8_of_ne m ρ c main_v1 (by decide)).trans ((W7_of_ne m ρ c main_v1 (by decide)).trans ((by host_keeps hostOps3 : W6 m ρ c (Proc.devRef .tc main_v1) = W5 m ρ c (Proc.devRef .tc main_v1)).trans ((W5_of_ne m ρ c main_v1 (by decide)).trans ((W4_of_ne m ρ c main_v1 (by decide)).trans ((by host_keeps hostOps1 : W3 m ρ c (Proc.devRef .tc main_v1) = W2 m ρ c (Proc.devRef .tc main_v1)).trans (W2_of_ne m ρ c main_v1 (by decide))))))))
/-- Region 0 leaves it as the first stretch wrote it. -/
theorem at2_v3 (c : Dev nD) : W2 m ρ c (Proc.devRef .tc main_v3) = W1 m ρ c (Proc.devRef .tc main_v3) :=
  (W2_of_ne m ρ c main_v3 (by decide))
/-- Still as the first stretch wrote it when the second layer's host operations start. -/
theorem at5_v3 (c : Dev nD) : W5 m ρ c (Proc.devRef .tc main_v3) = W1 m ρ c (Proc.devRef .tc main_v3) :=
  ((W5_of_ne m ρ c main_v3 (by decide)).trans ((W4_of_ne m ρ c main_v3 (by decide)).trans ((by host_keeps hostOps1 : W3 m ρ c (Proc.devRef .tc main_v3) = W2 m ρ c (Proc.devRef .tc main_v3)).trans (W2_of_ne m ρ c main_v3 (by decide)))))
/-- Still as the first stretch wrote it when the third layer's host operations start. -/
theorem at8_v3 (c : Dev nD) : W8 m ρ c (Proc.devRef .tc main_v3) = W1 m ρ c (Proc.devRef .tc main_v3) :=
  ((W8_of_ne m ρ c main_v3 (by decide)).trans ((W7_of_ne m ρ c main_v3 (by decide)).trans ((by host_keeps hostOps3 : W6 m ρ c (Proc.devRef .tc main_v3) = W5 m ρ c (Proc.devRef .tc main_v3)).trans ((W5_of_ne m ρ c main_v3 (by decide)).trans ((W4_of_ne m ρ c main_v3 (by decide)).trans ((by host_keeps hostOps1 : W3 m ρ c (Proc.devRef .tc main_v3) = W2 m ρ c (Proc.devRef .tc main_v3)).trans (W2_of_ne m ρ c main_v3 (by decide))))))))
/-- Region 0 leaves it as the first stretch wrote it. -/
theorem at2_v28 (c : Dev nD) : W2 m ρ c (Proc.devRef .tc main_v28) = W1 m ρ c (Proc.devRef .tc main_v28) :=
  (W2_of_ne m ρ c main_v28 (by decide))
/-- Still as the first stretch wrote it when the second layer's host operations start. -/
theorem at5_v28 (c : Dev nD) : W5 m ρ c (Proc.devRef .tc main_v28) = W1 m ρ c (Proc.devRef .tc main_v28) :=
  ((W5_of_ne m ρ c main_v28 (by decide)).trans ((W4_of_ne m ρ c main_v28 (by decide)).trans ((by host_keeps hostOps1 : W3 m ρ c (Proc.devRef .tc main_v28) = W2 m ρ c (Proc.devRef .tc main_v28)).trans (W2_of_ne m ρ c main_v28 (by decide)))))
/-- Still as the first stretch wrote it when the third layer's host operations start. -/
theorem at8_v28 (c : Dev nD) : W8 m ρ c (Proc.devRef .tc main_v28) = W1 m ρ c (Proc.devRef .tc main_v28) :=
  ((W8_of_ne m ρ c main_v28 (by decide)).trans ((W7_of_ne m ρ c main_v28 (by decide)).trans ((by host_keeps hostOps3 : W6 m ρ c (Proc.devRef .tc main_v28) = W5 m ρ c (Proc.devRef .tc main_v28)).trans ((W5_of_ne m ρ c main_v28 (by decide)).trans ((W4_of_ne m ρ c main_v28 (by decide)).trans ((by host_keeps hostOps1 : W3 m ρ c (Proc.devRef .tc main_v28) = W2 m ρ c (Proc.devRef .tc main_v28)).trans (W2_of_ne m ρ c main_v28 (by decide))))))))
/-- Region 0 leaves it as the first stretch wrote it. -/
theorem at2_v29 (c : Dev nD) : W2 m ρ c (Proc.devRef .tc main_v29) = W1 m ρ c (Proc.devRef .tc main_v29) :=
  (W2_of_ne m ρ c main_v29 (by decide))
/-- Still as the first stretch wrote it when the second layer's host operations start. -/
theorem at5_v29 (c : Dev nD) : W5 m ρ c (Proc.devRef .tc main_v29) = W1 m ρ c (Proc.devRef .tc main_v29) :=
  ((W5_of_ne m ρ c main_v29 (by decide)).trans ((W4_of_ne m ρ c main_v29 (by decide)).trans ((by host_keeps hostOps1 : W3 m ρ c (Proc.devRef .tc main_v29) = W2 m ρ c (Proc.devRef .tc main_v29)).trans (W2_of_ne m ρ c main_v29 (by decide)))))
/-- Still as the first stretch wrote it when the third layer's host operations start. -/
theorem at8_v29 (c : Dev nD) : W8 m ρ c (Proc.devRef .tc main_v29) = W1 m ρ c (Proc.devRef .tc main_v29) :=
  ((W8_of_ne m ρ c main_v29 (by decide)).trans ((W7_of_ne m ρ c main_v29 (by decide)).trans ((by host_keeps hostOps3 : W6 m ρ c (Proc.devRef .tc main_v29) = W5 m ρ c (Proc.devRef .tc main_v29)).trans ((W5_of_ne m ρ c main_v29 (by decide)).trans ((W4_of_ne m ρ c main_v29 (by decide)).trans ((by host_keeps hostOps1 : W3 m ρ c (Proc.devRef .tc main_v29) = W2 m ρ c (Proc.devRef .tc main_v29)).trans (W2_of_ne m ρ c main_v29 (by decide))))))))
/-- The first bias as launched, when the first layer's host operations start. -/
theorem at2_arg3 (c : Dev nD) : W2 m ρ c (Proc.devRef .tc main_arg3) = m ((c : Thread nD τ).loc main_arg3) :=
  ((W2_of_ne m ρ c main_arg3 (by decide)).trans (by host_keeps hostOps0 : W1 m ρ c (Proc.devRef .tc main_arg3) = W0 m ρ c (Proc.devRef .tc main_arg3)))
/-- The first layer's host operations leave its product in place. -/
theorem at3_v30 (c : Dev nD) : W3 m ρ c (Proc.devRef .tc main_v30) = W2 m ρ c (Proc.devRef .tc main_v30) :=
  (by host_keeps hostOps1 : W3 m ρ c (Proc.devRef .tc main_v30) = W2 m ρ c (Proc.devRef .tc main_v30))
/-- Region 2 finds the second weight as launched. -/
theorem at4_arg4 (c : Dev nD) : W4 m ρ c (Proc.devRef .tc main_arg4) = m ((c : Thread nD τ).loc main_arg4) :=
  ((W4_of_ne m ρ c main_arg4 (by decide)).trans ((by host_keeps hostOps1 : W3 m ρ c (Proc.devRef .tc main_arg4) = W2 m ρ c (Proc.devRef .tc main_arg4)).trans ((W2_of_ne m ρ c main_arg4 (by decide)).trans (by host_keeps hostOps0 : W1 m ρ c (Proc.devRef .tc main_arg4) = W0 m ρ c (Proc.devRef .tc main_arg4)))))
/-- The second bias as launched, when the second layer's host operations start. -/
theorem at5_arg5 (c : Dev nD) : W5 m ρ c (Proc.devRef .tc main_arg5) = m ((c : Thread nD τ).loc main_arg5) :=
  ((W5_of_ne m ρ c main_arg5 (by decide)).trans ((W4_of_ne m ρ c main_arg5 (by decide)).trans ((by host_keeps hostOps1 : W3 m ρ c (Proc.devRef .tc main_arg5) = W2 m ρ c (Proc.devRef .tc main_arg5)).trans ((W2_of_ne m ρ c main_arg5 (by decide)).trans (by host_keeps hostOps0 : W1 m ρ c (Proc.devRef .tc main_arg5) = W0 m ρ c (Proc.devRef .tc main_arg5))))))
/-- The second layer's host operations leave its product in place. -/
theorem at6_v47 (c : Dev nD) : W6 m ρ c (Proc.devRef .tc main_v47) = W5 m ρ c (Proc.devRef .tc main_v47) :=
  (by host_keeps hostOps3 : W6 m ρ c (Proc.devRef .tc main_v47) = W5 m ρ c (Proc.devRef .tc main_v47))
/-- Region 4 finds the third weight as launched. -/
theorem at7_arg6 (c : Dev nD) : W7 m ρ c (Proc.devRef .tc main_arg6) = m ((c : Thread nD τ).loc main_arg6) :=
  ((W7_of_ne m ρ c main_arg6 (by decide)).trans ((by host_keeps hostOps3 : W6 m ρ c (Proc.devRef .tc main_arg6) = W5 m ρ c (Proc.devRef .tc main_arg6)).trans ((W5_of_ne m ρ c main_arg6 (by decide)).trans ((W4_of_ne m ρ c main_arg6 (by decide)).trans ((by host_keeps hostOps1 : W3 m ρ c (Proc.devRef .tc main_arg6) = W2 m ρ c (Proc.devRef .tc main_arg6)).trans ((W2_of_ne m ρ c main_arg6 (by decide)).trans (by host_keeps hostOps0 : W1 m ρ c (Proc.devRef .tc main_arg6) = W0 m ρ c (Proc.devRef .tc main_arg6))))))))
/-- The third bias as launched, when the third layer's host operations start. -/
theorem at8_arg7 (c : Dev nD) : W8 m ρ c (Proc.devRef .tc main_arg7) = m ((c : Thread nD τ).loc main_arg7) :=
  ((W8_of_ne m ρ c main_arg7 (by decide)).trans ((W7_of_ne m ρ c main_arg7 (by decide)).trans ((by host_keeps hostOps3 : W6 m ρ c (Proc.devRef .tc main_arg7) = W5 m ρ c (Proc.devRef .tc main_arg7)).trans ((W5_of_ne m ρ c main_arg7 (by decide)).trans ((W4_of_ne m ρ c main_arg7 (by decide)).trans ((by host_keeps hostOps1 : W3 m ρ c (Proc.devRef .tc main_arg7) = W2 m ρ c (Proc.devRef .tc main_arg7)).trans ((W2_of_ne m ρ c main_arg7 (by decide)).trans (by host_keeps hostOps0 : W1 m ρ c (Proc.devRef .tc main_arg7) = W0 m ρ c (Proc.devRef .tc main_arg7)))))))))
/-- The third layer's host operations leave its product in place. -/
theorem at9_v64 (c : Dev nD) : W9 m ρ c (Proc.devRef .tc main_v64) = W8 m ρ c (Proc.devRef .tc main_v64) :=
  (by host_keeps hostOps5 : W9 m ρ c (Proc.devRef .tc main_v64) = W8 m ρ c (Proc.devRef .tc main_v64))

end Cert.KernelIdeal.Whole

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«179435_j14259291423189_1_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.Dense0.lean ====
/-
  Region 0 of the kernel program: a product tiled over its rows.

  The region's grid has ten points; point t multiplies rows 5000·t … 5000·t + 4999 of the left array, rounded to
  bfloat16, by the whole right array, rounded to bfloat16, from a zero accumulator, and writes the 128-column block
  back to the same rows of the output.  On the extended reals a change of float format is the identity, so entry
  (P, q) of the output is ∑ₖ A (P, k) · W (k, q): the output array ends holding the host's one product A · W.
  Stated at any contents V of the buffers on entry to the region.
-/
import proofs.«179435_j14259291423189_1_alg».proof.Proof.Gen.KernelIdeal.Frame
import proofs.«179435_j14259291423189_1_alg».proof.Proof.LibRowBlock
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Dense0

open Cert.KernelIdeal Cert.KernelIdeal.Gen Idealize.ShloMosaic.ValueIdx

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the left operand's and the output's row block is the point's number, the
    right operand is one block. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, q) of the block's product is entry (P, q) of the whole product when row p of the block is row P of A. -/
theorem payload_entry (A : FVec Ideal S50000x128 .f32) (Wt : FVec Ideal S128x128 .f32)
    (x0 : Vec Ideal S5000x128 .f32) (x1 : Vec Ideal S128x128 .f32) (P : Fin 50000) (p : Fin 5000) (q : Fin 128)
    (hx : ∀ k : Fin 128, x0 (ix2 p k) = A (ix2 P k)) (hw : ∀ k : Fin 128, x1 (ix2 k q) = Wt (ix2 k q)) :
    k0_pay1 x0 x1 (ix2 p q) = Host.dotGeneral (F := Ideal) (DotDims.plain 50000 128 128) none A Wt (ix2 P q) := by
  unfold k0_pay1
  exact Cert.Lib.RowBlock.matmul_eq_dotGeneral none none .single A Wt
    (truncf .bf16 x0 bitsLt_bf16_f32) (truncf .bf16 x1 bitsLt_bf16_f32) P p q hx hw

/-- The same at any index j of the block and i of the array with equal columns, row (j 0) of the block being row (i 0)
    of A. -/
theorem payload_at (A : FVec Ideal S50000x128 .f32) (Wt : FVec Ideal S128x128 .f32)
    (x0 : Vec Ideal S5000x128 .f32) (x1 : Vec Ideal S128x128 .f32) (j : S5000x128.Idx) (i : S50000x128.Idx)
    (hcol : (i 1).val = (j 1).val)
    (hx : ∀ k : Fin 128, x0 (ix2 (⟨(j 0).val, (j 0).isLt⟩ : Fin 5000) k) = A (ix2 (⟨(i 0).val, (i 0).isLt⟩ : Fin 50000) k))
    (hw : ∀ (k : Fin 128) (q : Fin 128), x1 (ix2 k q) = Wt (ix2 k q)) :
    k0_pay1 x0 x1 j = Host.dotGeneral (F := Ideal) (DotDims.plain 50000 128 128) none A Wt i := by
  obtain ⟨p, q, rfl⟩ : ∃ (p : Fin 5000) (q : Fin 128), j = ix2 p q := ⟨j 0, j 1, eq_ix2 j⟩
  obtain ⟨P, Q, rfl⟩ : ∃ (P : Fin 50000) (Q : Fin 128), i = ix2 P Q := ⟨i 0, i 1, eq_ix2 i⟩
  obtain rfl : Q = q := Fin.ext hcol
  exact payload_entry A Wt x0 x1 P p Q hx fun k => hw k Q

/-- What point t writes back is block t of the whole product. -/
theorem flushed_eq (c : Dev nD) (A : FVec Ideal S50000x128 .f32) (Wt : FVec Ideal S128x128 .f32)
    (hA : V c main_arg0 = A) (hW : V c main_arg2 = Wt) (t : Fin cfg0.N) :
    (dat0 V c).flushed 2 t = ((cfg0.win 2).blk t).view.read (Elt Ideal)
      (Host.dotGeneral (F := Ideal) (DotDims.plain 50000 128 128) none A Wt) := by
  show (cfg0.win 2).cut (grid0.coords t) ((dat0 V c).after 2 t) = _
  rw [after0_2]
  unfold out0_2
  rw [View.canon_unit_zero offsets_zero]
  simp only [View.ld_unit_zero (S := S5000x128) offsets_zero, View.ld_unit_zero (S := S128x128) offsets_zero]
  obtain ⟨e0, e1, e2, e3, e4, e5⟩ := block_index t
  funext j
  show k0_pay1 (iblk0 V c 0 t) (iblk0 V c 1 t) j
    = Host.dotGeneral (F := Ideal) (DotDims.plain 50000 128 128) none A Wt (((cfg0.win 2).blk t).view.emb j)
  refine payload_at A Wt (iblk0 V c 0 t) (iblk0 V c 1 t) j (((cfg0.win 2).blk t).view.emb j) ?_ ?_ ?_
  · show win0_2.index t (1 : Fin 2) * 128 + 1 * (j 1).val = (j 1).val
    rw [e5]; omega
  · intro k
    unfold iblk0
    show V c main_arg0 (((cfg0.win 0).blk t).view.emb (ix2 (⟨(j 0).val, (j 0).isLt⟩ : Fin 5000) k)) = A _
    rw [hA]
    refine congrArg A ?_
    funext a; apply Fin.ext
    match a with
    | ⟨0, _⟩ =>
      show win0_0.index t (0 : Fin 2) * 5000 + 1 * (j 0).val = win0_2.index t (0 : Fin 2) * 5000 + 1 * (j 0).val
      rw [e0, e4]
    | ⟨1, _⟩ =>
      show win0_0.index t (1 : Fin 2) * 128 + 1 * k.val = k.val
      rw [e1]; omega
  · intro k q
    unfold iblk0
    show V c main_arg2 (((cfg0.win 1).blk t).view.emb (ix2 k q)) = Wt _
    rw [hW]
    refine congrArg Wt ?_
    funext a; apply Fin.ext
    match a with
    | ⟨0, _⟩ =>
      show win0_1.index t (0 : Fin 2) * 128 + 1 * k.val = k.val
      rw [e2]; omega
    | ⟨1, _⟩ =>
      show win0_1.index t (1 : Fin 2) * 128 + 1 * q.val = q.val
      rw [e3]; omega

/-- An index of the output array is in point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Row r of the output lies in the block of point r / 5000: the ten blocks cover the array. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, e4, e5⟩ := block_index ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4']; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]; omega

/-- The output array after the region is the host's product of the two input arrays as the region found them. -/
theorem result (c : Dev nD) (A : FVec Ideal S50000x128 .f32) (Wt : FVec Ideal S128x128 .f32)
    (hA : V c main_arg0 = A) (hW : V c main_arg2 = Wt) :
    (dat0 V c).arrAt 2 cfg0.N = Host.dotGeneral (F := Ideal) (DotDims.plain 50000 128 128) none A Wt :=
  (dat0 V c).arrAt_eq_of_cover 2 _ (fun t _ => flushed_eq V c A Wt hA hW t) covered

end Cert.KernelIdeal.Dense0

end
-- ==== Proof.Dense2.lean ====
/-
  Region 2 of the kernel program: a product tiled over its rows.

  The region's grid has ten points; point t multiplies rows 5000·t … 5000·t + 4999 of the left array, rounded to
  bfloat16, by the whole right array, rounded to bfloat16, from a zero accumulator, and writes the 128-column block
  back to the same rows of the output.  On the extended reals a change of float format is the identity, so entry
  (P, q) of the output is ∑ₖ A (P, k) · W (k, q): the output array ends holding the host's one product A · W.
  Stated at any contents V of the buffers on entry to the region.
-/
import proofs.«179435_j14259291423189_1_alg».proof.Proof.Gen.KernelIdeal.Frame
import proofs.«179435_j14259291423189_1_alg».proof.Proof.LibRowBlock
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Dense2

open Cert.KernelIdeal Cert.KernelIdeal.Gen Idealize.ShloMosaic.ValueIdx

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the left operand's and the output's row block is the point's number, the
    right operand is one block. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, q) of the block's product is entry (P, q) of the whole product when row p of the block is row P of A. -/
theorem payload_entry (A : FVec Ideal S50000x128 .f32) (Wt : FVec Ideal S128x128 .f32)
    (x0 : Vec Ideal S5000x128 .f32) (x1 : Vec Ideal S128x128 .f32) (P : Fin 50000) (p : Fin 5000) (q : Fin 128)
    (hx : ∀ k : Fin 128, x0 (ix2 p k) = A (ix2 P k)) (hw : ∀ k : Fin 128, x1 (ix2 k q) = Wt (ix2 k q)) :
    k2_pay1 x0 x1 (ix2 p q) = Host.dotGeneral (F := Ideal) (DotDims.plain 50000 128 128) none A Wt (ix2 P q) := by
  unfold k2_pay1
  exact Cert.Lib.RowBlock.matmul_eq_dotGeneral none none .single A Wt
    (truncf .bf16 (shapeCast S5000x128 x0 shapeCasts_S5000x128_S5000x128) bitsLt_bf16_f32) (truncf .bf16 x1 bitsLt_bf16_f32) P p q (fun k => (congrFun (shapeCast_self x0 shapeCasts_S5000x128_S5000x128) (ix2 p k)).trans (hx k)) hw

/-- The same at any index j of the block and i of the array with equal columns, row (j 0) of the block being row (i 0)
    of A. -/
theorem payload_at (A : FVec Ideal S50000x128 .f32) (Wt : FVec Ideal S128x128 .f32)
    (x0 : Vec Ideal S5000x128 .f32) (x1 : Vec Ideal S128x128 .f32) (j : S5000x128.Idx) (i : S50000x128.Idx)
    (hcol : (i 1).val = (j 1).val)
    (hx : ∀ k : Fin 128, x0 (ix2 (⟨(j 0).val, (j 0).isLt⟩ : Fin 5000) k) = A (ix2 (⟨(i 0).val, (i 0).isLt⟩ : Fin 50000) k))
    (hw : ∀ (k : Fin 128) (q : Fin 128), x1 (ix2 k q) = Wt (ix2 k q)) :
    k2_pay1 x0 x1 j = Host.dotGeneral (F := Ideal) (DotDims.plain 50000 128 128) none A Wt i := by
  obtain ⟨p, q, rfl⟩ : ∃ (p : Fin 5000) (q : Fin 128), j = ix2 p q := ⟨j 0, j 1, eq_ix2 j⟩
  obtain ⟨P, Q, rfl⟩ : ∃ (P : Fin 50000) (Q : Fin 128), i = ix2 P Q := ⟨i 0, i 1, eq_ix2 i⟩
  obtain rfl : Q = q := Fin.ext hcol
  exact payload_entry A Wt x0 x1 P p Q hx fun k => hw k Q

/-- What point t writes back is block t of the whole product. -/
theorem flushed_eq (c : Dev nD) (A : FVec Ideal S50000x128 .f32) (Wt : FVec Ideal S128x128 .f32)
    (hA : V c main_v46 = A) (hW : V c main_arg4 = Wt) (t : Fin cfg2.N) :
    (dat2 V c).flushed 2 t = ((cfg2.win 2).blk t).view.read (Elt Ideal)
      (Host.dotGeneral (F := Ideal) (DotDims.plain 50000 128 128) none A Wt) := by
  show (cfg2.win 2).cut (grid2.coords t) ((dat2 V c).after 2 t) = _
  rw [after2_2]
  unfold out2_2
  rw [View.canon_unit_zero offsets_zero]
  simp only [View.ld_unit_zero (S := S5000x128) offsets_zero, View.ld_unit_zero (S := S128x128) offsets_zero]
  obtain ⟨e0, e1, e2, e3, e4, e5⟩ := block_index t
  funext j
  show k2_pay1 (iblk2 V c 0 t) (iblk2 V c 1 t) j
    = Host.dotGeneral (F := Ideal) (DotDims.plain 50000 128 128) none A Wt (((cfg2.win 2).blk t).view.emb j)
  refine payload_at A Wt (iblk2 V c 0 t) (iblk2 V c 1 t) j (((cfg2.win 2).blk t).view.emb j) ?_ ?_ ?_
  · show win2_2.index t (1 : Fin 2) * 128 + 1 * (j 1).val = (j 1).val
    rw [e5]; omega
  · intro k
    unfold iblk2
    show V c main_v46 (((cfg2.win 0).blk t).view.emb (ix2 (⟨(j 0).val, (j 0).isLt⟩ : Fin 5000) k)) = A _
    rw [hA]
    refine congrArg A ?_
    funext a; apply Fin.ext
    match a with
    | ⟨0, _⟩ =>
      show win2_0.index t (0 : Fin 2) * 5000 + 1 * (j 0).val = win2_2.index t (0 : Fin 2) * 5000 + 1 * (j 0).val
      rw [e0, e4]
    | ⟨1, _⟩ =>
      show win2_0.index t (1 : Fin 2) * 128 + 1 * k.val = k.val
      rw [e1]; omega
  · intro k q
    unfold iblk2
    show V c main_arg4 (((cfg2.win 1).blk t).view.emb (ix2 k q)) = Wt _
    rw [hW]
    refine congrArg Wt ?_
    funext a; apply Fin.ext
    match a with
    | ⟨0, _⟩ =>
      show win2_1.index t (0 : Fin 2) * 128 + 1 * k.val = k.val
      rw [e2]; omega
    | ⟨1, _⟩ =>
      show win2_1.index t (1 : Fin 2) * 128 + 1 * q.val = q.val
      rw [e3]; omega

/-- An index of the output array is in point t's block iff each coordinate is in the block's range on its axis. -/
theorem mem_block (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v47).slice (win2_2.rect t)).set ↔ _
  rw [View.set_slice_whole, Rect.mem_set_unit]
  exact Iff.rfl

/-- Row r of the output lies in the block of point r / 5000: the ten blocks cover the array. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨-, -, -, -, e4, e5⟩ := block_index ⟨(i 0).val / 5000, ht⟩
  have e4' : win2_2.index ⟨(i 0).val / 5000, ht⟩ (0 : Fin 2) = (i 0).val / 5000 := e4
  refine ⟨⟨(i 0).val / 5000, ht⟩, flush2_2 _, ?_⟩
  rw [mem_block]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4']; omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    rw [e5]; omega

/-- The output array after the region is the host's product of the two input arrays as the region found them. -/
theorem result (c : Dev nD) (A : FVec Ideal S50000x128 .f32) (Wt : FVec Ideal S128x128 .f32)
    (hA : V c main_v46 = A) (hW : V c main_arg4 = Wt) :
    (dat2 V c).arrAt 2 cfg2.N = Host.dotGeneral (F := Ideal) (DotDims.plain 50000 128 128) none A Wt :=
  (dat2 V c).arrAt_eq_of_cover 2 _ (fun t _ => flushed_eq V c A Wt hA hW t) covered

end Cert.KernelIdeal.Dense2

end
-- ==== Proof.Dense4.lean ====
/-
  Region 4 of the kernel program: a product tiled over its rows.

  The region's grid has ten points; point t multiplies rows 5000·t … 5000·t + 4999 of the left array, rounded to
  bfloat16, by the whole right array, rounded to bfloat16, from a zero accumulator, and writes the 64-column block
  back to the same rows of the output.  On the extended reals a change of float format is the identity, so entry
  (P, q) of the output is ∑ₖ A (P, k) · W (k, q): the output array ends holding the host's one product A · W.
  Stated at any contents V of the buffers on entry to the region.
-/
import proofs.«179435_j14259291423189_1_alg».proof.Proof.Gen.KernelIdeal.Frame
import proofs.«179435_j14259291423189_1_alg».proof.Proof.LibRowBlock
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Dense4

open Cert.KernelIdeal Cert.KernelIdeal.Gen Idealize.ShloMosaic.ValueIdx

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the left operand's and the output's row block is the point's number, the
    right operand is one block. -/
theorem block_index : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Entry (p, q) of the block's product is entry (P, q) of the whole product when row p of the block is row P of A. -/
theorem payload_entry (A : FVec Ideal S50000x128 .f32) (Wt : FVec Ideal S128x64 .f32)
    (x0 : Vec Ideal S5000x128 .f32) (x1 : Vec Ideal S128x64 .f32) (P : Fin 50000) (p : Fin 5000) (q : Fin 64)
    (hx : ∀ k : Fin 128, x0 (ix2 p k) = A (ix2 P k)) (hw : ∀ k : Fin 128, x1 (ix2 k q) = Wt (ix2 k q)) :
    k4_pay1 x0 x1 (ix2 p q) = Host.dotGeneral (F := Ideal) (DotDims.plain 50000 128 64) none A Wt (ix2 P q) := by
  unfold k4_pay1
  exact Cert.Lib.RowBlock.matmul_eq_dotGeneral none none .single A Wt
    (truncf .bf16 (shapeCast S5000x128 x0 shapeCasts_S5000x128_S5000x128) bitsLt_bf16_f32) (truncf .bf16 x1 bitsLt_bf16_f32) P p q (fun k => (congrFun (shapeCast_self x0 shapeCasts_S5000x128_S5000x128) (ix2 p k)).trans (hx k)) hw

/-- The same at any index j of the block and i of the array with equal columns, row (j 0) of the block being row (i 0)
    of A. -/
theorem payload_at (A : FVec Ideal S50000x128 .f32) (Wt : FVec Ideal S128x64 .f32)
    (x0 : Vec Ideal S5000x128 .f32) (x1 : Vec Ideal S128x64 .f32) (j : S5000x64.Idx) (i : S50000x64.Idx)
    (hcol : (i 1).val = (j 1).val)
    (hx : ∀ k : Fin 128, x0 (ix2 (⟨(j 0).val, (j 0).isLt⟩ : Fin 5000) k) = A (ix2 (⟨(i 0).val, (i 0).isLt⟩ : Fin 50000) k))
    (hw : ∀ (k : Fin 128) (q : Fin 64), x1 (ix2 k q) = Wt (ix2 k q)) :
    k4_pay1 x0 x1 j = Host.dotGeneral (F := Ideal) (DotDims.plain 50000 128 64) none A Wt i := by
  obtain ⟨p, q, rfl⟩ : ∃ (p : Fin 5000) (q : Fin 64), j = ix2 p q := ⟨j 0, j 1, eq_ix2 j⟩
  obtain ⟨P, Q, rfl⟩ : ∃ (P : Fin 50000) (Q : Fin 64), i = ix2 P Q := ⟨i 0, i 1, eq_ix2 i⟩
  obtain rfl : Q = q := Fin.ext hcol
  exact payload_entry A Wt x0 x1 P p Q hx fun k => hw k Q

/-- What point t writes back is block t of the whole product. -/
theorem flushed_eq (c : Dev nD) (A : FVec Ideal S50000x128 .f32) (Wt : FVec Ideal S128x64 .f32)
    (hA : V c main_v63 = A) (hW : V c main_arg6 = Wt) (t : Fin cfg4.N) :
    (dat4 V c).flushed 2 t = ((cfg4.win 2).blk t).view.read (Elt Ideal)
      (Host.dotGeneral (F := Ideal) (DotDims.plain 50000 128 64) none A Wt) := by
  show (cfg4.win 2).cut (grid4.coords t) ((dat4 V c).after 2 t) = _
  rw [after4_2]
  unfold out4_2
  rw [View.canon_unit_zero offsets_zero]
  simp only [View.ld_unit_zero (S := S5000x128) offsets_zero, View.ld_unit_zero (S := S128x64) offsets_zero]
  obtain ⟨e0, e1, e2, e3, e4, e5⟩ := block_index t
  funext j
  show k4_pay1 (iblk4 V c 0 t) (iblk4 V c 1 t) j
    = Host.dotGeneral (F := Ideal) (DotDims.plain 50000 128 64) none A Wt (((cfg4.win 2).blk t).view.emb j)
  refine payload_at A Wt (iblk4 V c 0 t) (iblk4 V c 1 t) j (((cfg4.win 2).blk t).view.emb j) ?_ ?_ ?_
  · show win4_2.index t (1 : Fin 2) * 64 + 1 * (j 1).val = (j 1).val
    rw [e5]; omega
  · intro k
    unfold iblk4
    show V c main_v63 (((cfg4.win 0).blk t).view.emb (ix2 (⟨(j 0).val, (j 0).isLt⟩ : Fin 5000) k)) = A _
    rw [hA]
    refine congrArg A ?_
    funext a; apply Fin.ext
    match a with
    | ⟨0, _⟩ =>
      show win4_0.index t (0 : Fin 2) * 5000 + 1 * (j 0).val = win4_2.index t (0 : Fin 2) * 5000 + 1 * (j 0).val
      rw [e0, e4]
    | ⟨1, _⟩ =>
      show win4_0.index t (1 : Fin 2) * 128 + 1 * k.val = k.val
      rw [e1]; omega
  · intro k q
    unfold iblk4
    show V c main_arg6 (((cfg4.win 1).blk t).view.emb (ix2 k q)) = Wt _
    rw [hW]
    refine congrArg Wt ?_
    funext a; apply Fin.ext
    match a with
    | ⟨0, _⟩ =>
      show win4_1.index t (0 : Fin 2) * 128 + 1 * k.val = k.val
      rw [e2]; omega
    | ⟨1, _⟩ =>
      show win4_1.index t (1 : Fin 2) * 64 + 1 * q.val = q.val
      rw [e3]; omega

/-- An index of the output array is in point t's block iff each coordinate is in the block's range on its axis. -/
theorem mem_block (t : Fin cfg4.N) (i : S50000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v64).slice (win4_2.rect t)).set ↔ _
  rw [View.set_slice_whole, Rect.mem_set_unit]
  exact Iff.rfl

/-- Row r of the output lies in the block of point r / 5000: the ten blocks cover the array. -/
theorem covered (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  have hN : cfg4.N = 10 := N_4
  have ht : (i 0).val / 5000 < cfg4.N := by rw [hN]; omega
  obtain ⟨-, -, -, -, e4, e5⟩ := block_index ⟨(i 0).val / 5000, ht⟩
  have e4' : win4_2.index ⟨(i 0).val / 5000, ht⟩ (0 : Fin 2) = (i 0).val / 5000 := e4
  refine ⟨⟨(i 0).val / 5000, ht⟩, flush4_2 _, ?_⟩
  rw [mem_block]
  intro a
  match a with
  | ⟨0, _⟩ =>
    show win4_2.index ⟨(i 0).val / 5000, ht⟩ (0 : Fin 2) * 5000 ≤ (i 0).val
      ∧ (i 0).val < win4_2.index ⟨(i 0).val / 5000, ht⟩ (0 : Fin 2) * 5000 + 5000
    rw [e4']; omega
  | ⟨1, _⟩ =>
    show win4_2.index ⟨(i 0).val / 5000, ht⟩ (1 : Fin 2) * 64 ≤ (i 1).val
      ∧ (i 1).val < win4_2.index ⟨(i 0).val / 5000, ht⟩ (1 : Fin 2) * 64 + 64
    rw [e5]; omega

/-- The output array after the region is the host's product of the two input arrays as the region found them. -/
theorem result (c : Dev nD) (A : FVec Ideal S50000x128 .f32) (Wt : FVec Ideal S128x64 .f32)
    (hA : V c main_v63 = A) (hW : V c main_arg6 = Wt) :
    (dat4 V c).arrAt 2 cfg4.N = Host.dotGeneral (F := Ideal) (DotDims.plain 50000 128 64) none A Wt :=
  (dat4 V c).arrAt_eq_of_cover 2 _ (fun t _ => flushed_eq V c A Wt hA hW t) covered

end Cert.KernelIdeal.Dense4

end
-- ==== Proof.LibAffineRows.lean ====
/-
  A dense layer applied to a block of rows, against the same layer applied to the whole array, on the extended reals.

  Let `A` be an `M×K` array, `W` a `K×N` weight and `b` a bias vector of length `N`. A kernel that tiles the rows of
  `A` computes, on a `B×K` block `x` whose row `p` is row `P` of `A`, the product `x · W` on the vector unit from the zero
  accumulator and adds the bias laid out as one row `[1, N]` and broadcast over the block's rows; the host computes the
  one product `A · W` and adds the bias broadcast over all rows. Entry `(p, q)` of the first is entry `(P, q)` of the
  second: both are `∑ k, A (P, k) * W (k, q) + b q`, the same sum term by term, so no finiteness is asked of any entry
  and the operands' float formats do not matter. Also here: the two spellings of "a vector as a row, repeated down the
  rows" read at an entry (a shape cast to `[1, N]` then a row broadcast; two `broadcast_in_dim`), and the rectifier
  `max (·, 0)` with its zero spelt as a splat scalar on one side and a broadcast rank-0 constant on the other.
-/
import proofs.«179435_j14259291423189_1_alg».proof.Proof.LibRowBlock
import Idealize.ShloMosaic.Lib.ValueLayout
import Idealize.ShloMosaic.Lib.Pipeline.Value

noncomputable section

namespace Cert.Lib.AffineRows

open Idealize.ShloMosaic Idealize.ShloMosaic.ValueIdx

variable {α : Type}

/-- A vector `[N]` cast to one row `[1, N]` and broadcast over `B` rows reads, at `(p, j)`, the vector at `j`. -/
theorem castRow_apply {B N : ℕ} (b : (⟨1, ![N]⟩ : Shape).Idx → α) (h1 : (⟨1, ![N]⟩ : Shape).ShapeCasts ⟨2, ![1, N]⟩)
    (h2 : (⟨2, ![1, N]⟩ : Shape).Broadcasts ⟨2, ![B, N]⟩) (p : Fin B) (j : Fin N) :
    broadcastTo ⟨2, ![B, N]⟩ (shapeCast ⟨2, ![1, N]⟩ b h1) h2 (ix2 p j) = b (ix1 j) :=
  (broadcastTo_1b_ab_apply _ h2 p j).trans (shapeCast_a_1a_apply b h1 0 j)

/-- A vector `[N]` put on axis 1 of `[1, N]` and that row put on both axes of `[M, N]` reads, at `(P, j)`, the vector at `j`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (P : Fin M) (j : Fin N) :
    broadcastInDim ⟨2, ![M, N]⟩ ![0, 1] h2 (broadcastInDim ⟨2, ![1, N]⟩ ![1] h1 b) (ix2 P j) = b (ix1 j) := by
  have hj : j.val = if N = 1 then 0 else j.val := by
    split
    · have := j.isLt; omega
    · rfl
  refine (broadcastInDim_apply _ h2 _ (ix2 P j) (ix2 (0 : Fin 1) j) fun a => ?_).trans
    (broadcastInDim_apply _ h1 b (ix2 (0 : Fin 1) j) (ix1 j) fun a => ?_)
  · match a with
    | ⟨0, _⟩ => rfl
    | ⟨1, _⟩ => exact hj
  · match a with
    | ⟨0, _⟩ => exact hj

/-- One dense layer on a block of rows is, row for row, the layer on the whole array. -/
theorem layer_row {M K N B : ℕ} {φ₁ φ₂ ψ₁ ψ₂ : FTy} (prec prec' : Option ContractPrecision)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (bk : FVec Ideal ⟨2, ![B, N]⟩ .f32) (bR : FVec Ideal ⟨2, ![M, N]⟩ .f32) (P : Fin M) (p : Fin B) (q : Fin N)
    (hx : ∀ k : Fin K, (x (ix2 p k) : EReal) = A (ix2 P k)) (hw : ∀ k : Fin K, (w (ix2 k q) : EReal) = W (ix2 k q))
    (hb : (bk (ix2 p q) : EReal) = bR (ix2 P q)) :
    addf (matmul (DotDims.plain B K N) prec x w (constant ⟨2, ![B, N]⟩ .f32 0x00000000#32)) bk (ix2 p q)
      = addf (Host.dotGeneral (DotDims.plain M K N) prec' A W) bR (ix2 P q) := by
  show FloatOps.addf _ _ = FloatOps.addf _ _
  rw [hb]
  exact congrArg (FloatOps.addf · _) (Cert.Lib.RowBlock.matmul_eq_dotGeneral prec prec' .single A W x w P p q hx hw)

/-- The rectifier at an entry: the zero a splat scalar on one side, a broadcast rank-0 constant on the other. -/
theorem relu_row {s t : Shape} (u : FVec Ideal s .f32) (v : FVec Ideal t .f32) (i : s.Idx) (j : t.Idx)
    (hbc : (⟨0, ![]⟩ : Shape).BroadcastsInDim t ![]) (huv : (u i : EReal) = v j) :
    maximumf u (broadcast s (Scalar.ofBits .f32 0x00000000#32)) i
      = maximumf v (broadcastInDim t ![] hbc (constant ⟨0, ![]⟩ .f32 0x00000000#32)) j := by
  show FloatOps.maximumf (u i) _ = FloatOps.maximumf (v j) _
  rw [huv]
  rfl

end Cert.Lib.AffineRows

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.LibRowNorm.lean ====
/-
  Row-wise L2 normalisation after a rectifier, on the extended reals.  For a matrix z the result is
      r / (sqrt (Σ_k r_{·,k}²) + ε),   r = max z 0,
  every row by itself.  Computed on a block of B rows with vector operations (a lane reduction, a cast of the
  row sums to a column, a broadcast of that column) it is, entry for entry, what the host computes on the whole
  M-row array with a reduce and broadcast_in_dim, whenever row p of the block is row P of the array.  No finiteness
  is asked of anything: both sides are the same expression of the row's entries.
  Also here: the two keepdims readings of broadcast_in_dim ([M] put on a column [M, 1]; a column [M, 1] repeated
  along [M, N]), a rank-0 constant broadcast anywhere, and the host's sum of a row from the zero word.
-/
import Idealize.ShloMosaic.PureOps.Ideal.Laws
import Idealize.ShloMosaic.Lib.ValueIdx
import Idealize.ShloMosaic.Lib.Pipeline.Value
import proofs.«179435_j14259291423189_1_alg».proof.Proof.LibKeepdims

noncomputable section

open scoped BigOperators

namespace Cert.Lib.RowNorm

open Idealize.ShloMosaic Idealize.ShloMosaic.ValueIdx Idealize.ShloMosaic.ValueKeepdims

variable {α : Type} {M B N : ℕ}

/-- A vector `[M]` put on axis 0 of the column `[M, 1]` reads, at `(P, u)`, the vector at `P`. -/
theorem inDimCol_apply (x : (⟨1, ![M]⟩ : Shape).Idx → α) (h : (⟨1, ![M]⟩ : Shape).BroadcastsInDim ⟨2, ![M, 1]⟩ ![0])
    (P : Fin M) (u : Fin 1) : broadcastInDim ⟨2, ![M, 1]⟩ ![0] h x (ix2 P u) = x (ix1 P) := by
  refine broadcastInDim_apply _ h x (ix2 P u) (ix1 P) fun a => ?_
  match a with
  | ⟨0, _⟩ =>
    show P.val = if M = 1 then 0 else P.val
    split
    · have := P.isLt; omega
    · rfl

/-- A column `[M, 1]` put on both axes of `[M, N]` reads, at `(P, q)`, the column at `(P, 0)`. -/
theorem inDimColRep_apply (x : (⟨2, ![M, 1]⟩ : Shape).Idx → α) (h : (⟨2, ![M, 1]⟩ : Shape).BroadcastsInDim ⟨2, ![M, N]⟩ ![0, 1])
    (P : Fin M) (q : Fin N) : broadcastInDim ⟨2, ![M, N]⟩ ![0, 1] h x (ix2 P q) = x (ix2 P (0 : Fin 1)) := by
  refine broadcastInDim_apply _ h x (ix2 P q) (ix2 P (0 : Fin 1)) fun a => ?_
  match a with
  | ⟨0, _⟩ =>
    show P.val = if M = 1 then 0 else P.val
    split
    · have := P.isLt; omega
    · rfl
  | ⟨1, _⟩ =>
    show (0 : ℕ) = if (1 : ℕ) = 1 then 0 else q.val
    rw [if_pos rfl]

/-- A rank-0 float constant broadcast to any shape reads, everywhere, the constant's value. -/
theorem inDimConst_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply _ h _ i ix0 fun a => a.elim0

/-- The host's sum of a matrix over its second axis from the zero word, at row `P`: the sum of the row's entries. -/
theorem hostRowSum (X : FVec Ideal ⟨2, ![M, N]⟩ .f32) (hR : (⟨2, ![M, N]⟩ : Shape).ReducesTo [1] ⟨1, ![M]⟩)
    (hr : (⟨2, ![M, N]⟩ : Shape).Reduces [1] ⟨1, ![M]⟩) (h0 : 0 < (⟨0, ![]⟩ : Shape).numel) (P : Fin M) :
    Host.reduceAdd (F := Ideal) X (constant ⟨0, ![]⟩ .f32 0x00000000#32) hR h0 (ix1 P) = ∑ k : Fin N, X (ix2 P k) := by
  simp only [Host.reduceAdd, Ideal.hostReduceAdd_def]
  rw [Ideal.hostReduceAdd_single hR hr, constant_apply, Ideal.ofBits_zero_f32, zero_add]
  exact Finset.sum_congr rfl fun k _ => congrArg X (lift_axis1_ix2 hr P k)

/-- The rectifier of a block against the splat zero and of the whole array against the broadcast rank-0 zero agree
    at corresponding entries. -/
theorem relu_entry (z : FVec Ideal ⟨2, ![B, N]⟩ .f32) (Z : FVec Ideal ⟨2, ![M, N]⟩ .f32)
    (b0 : (⟨0, ![]⟩ : Shape).BroadcastsInDim ⟨2, ![M, N]⟩ ![]) (p : Fin B) (P : Fin M) (q : Fin N)
    (hz : (z (ix2 p q) : EReal) = Z (ix2 P q)) :
    maximumf z (broadcast ⟨2, ![B, N]⟩ (Scalar.ofBits (F := Ideal) .f32 0x00000000#32)) (ix2 p q)
      = maximumf Z (broadcastInDim ⟨2, ![M, N]⟩ ![] b0 (constant (F := Ideal) ⟨0, ![]⟩ .f32 0x00000000#32)) (ix2 P q) := by
  rw [maximumf_apply, maximumf_apply, inDimConst_apply, hz]
  rfl

/-- Entry `(p, q)` of a row block's `relu z / (sqrt (Σ relu z ²) + ε)` is entry `(P, q)` of the whole array's, the
    block by vector operations and the array by host operations, when row `p` of the block is row `P` of the array. -/
theorem l2norm_row (e : BitVec 32) (z : FVec Ideal ⟨2, ![B, N]⟩ .f32) (Z : FVec Ideal ⟨2, ![M, N]⟩ .f32)
    (hred : (⟨2, ![B, N]⟩ : Shape).Reduces [1] ⟨1, ![B]⟩) (hφ : FKind.Formats .f32)
    (hacc : (0x00000000#32 : BitVec FTy.f32.bits) = FKind.add.neutral .f32 hφ)
    (hc : (⟨1, ![B]⟩ : Shape).ShapeCasts ⟨2, ![B, 1]⟩) (hb : (⟨2, ![B, 1]⟩ : Shape).Broadcasts ⟨2, ![B, N]⟩)
    (hR : (⟨2, ![M, N]⟩ : Shape).ReducesTo [1] ⟨1, ![M]⟩) (hr : (⟨2, ![M, N]⟩ : Shape).Reduces [1] ⟨1, ![M]⟩)
    (h0 : 0 < (⟨0, ![]⟩ : Shape).numel)
    (b0 : (⟨0, ![]⟩ : Shape).BroadcastsInDim ⟨2, ![M, N]⟩ ![]) (b0' : (⟨0, ![]⟩ : Shape).BroadcastsInDim ⟨2, ![M, 1]⟩ ![])
    (b1 : (⟨1, ![M]⟩ : Shape).BroadcastsInDim ⟨2, ![M, 1]⟩ ![0]) (b2 : (⟨2, ![M, 1]⟩ : Shape).BroadcastsInDim ⟨2, ![M, N]⟩ ![0, 1])
    (p : Fin B) (P : Fin M) (q : Fin N) (hz : ∀ q' : Fin N, (z (ix2 p q') : EReal) = Z (ix2 P q')) :
    divf (maximumf z (broadcast ⟨2, ![B, N]⟩ (Scalar.ofBits (F := Ideal) .f32 0x00000000#32)))
        (broadcastTo ⟨2, ![B, N]⟩
          (addf (sqrt (shapeCast ⟨2, ![B, 1]⟩
              (multiReduction .add [1] ⟨1, ![B]⟩
                (mulf (maximumf z (broadcast ⟨2, ![B, N]⟩ (Scalar.ofBits (F := Ideal) .f32 0x00000000#32)))
                  (maximumf z (broadcast ⟨2, ![B, N]⟩ (Scalar.ofBits (F := Ideal) .f32 0x00000000#32))))
                0x00000000#32 hred hφ hacc) hc))
            (broadcast ⟨2, ![B, 1]⟩ (Scalar.ofBits (F := Ideal) .f32 e))) hb) (ix2 p q)
      = Host.divf (maximumf Z (broadcastInDim ⟨2, ![M, N]⟩ ![] b0 (constant (F := Ideal) ⟨0, ![]⟩ .f32 0x00000000#32)))
          (broadcastInDim ⟨2, ![M, N]⟩ ![0, 1] b2
            (addf (Host.sqrt (broadcastInDim ⟨2, ![M, 1]⟩ ![0] b1
                (Host.reduceAdd
                  (mulf (maximumf Z (broadcastInDim ⟨2, ![M, N]⟩ ![] b0 (constant (F := Ideal) ⟨0, ![]⟩ .f32 0x00000000#32)))
                    (maximumf Z (broadcastInDim ⟨2, ![M, N]⟩ ![] b0 (constant (F := Ideal) ⟨0, ![]⟩ .f32 0x00000000#32))))
                  (constant (F := Ideal) ⟨0, ![]⟩ .f32 0x00000000#32) hR h0)))
              (broadcastInDim ⟨2, ![M, 1]⟩ ![] b0' (constant (F := Ideal) ⟨0, ![]⟩ .f32 e)))) (ix2 P q) := by
  have hrelu := fun q' => relu_entry z Z b0 p P q' (hz q')
  -- the two denominators: the row's root sum of squares plus ε, read at the row
  have hden : broadcastTo ⟨2, ![B, N]⟩
          (addf (sqrt (shapeCast ⟨2, ![B, 1]⟩
              (multiReduction .add [1] ⟨1, ![B]⟩
                (mulf (maximumf z (broadcast ⟨2, ![B, N]⟩ (Scalar.ofBits (F := Ideal) .f32 0x00000000#32)))
                  (maximumf z (broadcast ⟨2, ![B, N]⟩ (Scalar.ofBits (F := Ideal) .f32 0x00000000#32))))
                0x00000000#32 hred hφ hacc) hc))
            (broadcast ⟨2, ![B, 1]⟩ (Scalar.ofBits (F := Ideal) .f32 e))) hb (ix2 p q)
      = broadcastInDim ⟨2, ![M, N]⟩ ![0, 1] b2
            (addf (Host.sqrt (broadcastInDim ⟨2, ![M, 1]⟩ ![0] b1
                (Host.reduceAdd
                  (mulf (maximumf Z (broadcastInDim ⟨2, ![M, N]⟩ ![] b0 (constant (F := Ideal) ⟨0, ![]⟩ .f32 0x00000000#32)))
                    (maximumf Z (broadcastInDim ⟨2, ![M, N]⟩ ![] b0 (constant (F := Ideal) ⟨0, ![]⟩ .f32 0x00000000#32))))
                  (constant (F := Ideal) ⟨0, ![]⟩ .f32 0x00000000#32) hR h0)))
              (broadcastInDim ⟨2, ![M, 1]⟩ ![] b0' (constant (F := Ideal) ⟨0, ![]⟩ .f32 e))) (ix2 P q) := by
    rw [broadcastTo_a1_ab_apply, inDimColRep_apply, addf_apply, addf_apply, inDimConst_apply, broadcast_apply]
    refine congrArg (· + Ideal.ofBits .f32 e) ?_
    show Ideal.sqrt _ = Ideal.sqrt _
    refine congrArg Ideal.sqrt ?_
    rw [shapeCast_a_a1_apply, inDimCol_apply, multiReduction_add_row, hostRowSum _ hR hr h0]
    refine Finset.sum_congr rfl fun k _ => ?_
    rw [mulf_apply, mulf_apply, hrelu k]
  show Ideal.div _ _ = Ideal.div _ _
  rw [hden, hrelu q]

end Cert.Lib.RowNorm

end
-- ==== Proof.Combine1.lean ====
/-
  Region 1 of the kernel program: the layer's combination, tiled over rows.

  Point t of the ten-point grid takes rows 5000·t … 5000·t + 4999 of the aggregate and of the dense product, the same
  rows of the self-loop scale (a column [50000, 1]) and the one row [1, 128] of the bias, and writes
  max ((agg + h · scale) + bias, 0) to the same rows of the output.  Entry (P, q) of the output is therefore
  max ((agg (P, q) + h (P, q) · s P) + b q, 0), where the column is the vector s reshaped and the row the vector b reshaped:
  the host's own combination of the whole arrays (the scale and the bias put in place by two broadcasts each, the
  zero a broadcast constant), entry for entry.  Stated at any contents V of the buffers on entry to the region.
-/
import proofs.«179435_j14259291423189_1_alg».proof.Proof.Gen.KernelIdeal.Frame
import proofs.«179435_j14259291423189_1_alg».proof.Proof.LibAffineRows
import proofs.«179435_j14259291423189_1_alg».proof.Proof.LibRowNorm
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)

namespace Cert.KernelIdeal.Combine1

open Cert.KernelIdeal Cert.KernelIdeal.Gen Idealize.ShloMosaic.ValueIdx

variable (V : (c : Dev nD) → (b : Ref sig .tc) → Buf (Elt Ideal) ((c : Thread nD τ).loc b))

/-- The layer's combination of whole arrays, as the host writes it. -/
def layer (agg h : FVec Ideal S50000x128 .f32) (s : FVec Ideal S50000 .f32) (b : FVec Ideal S128 .f32)
    (h1 : S50000.BroadcastsInDim S50000x1 ![0]) (h2 : S50000x1.BroadcastsInDim S50000x128 ![0, 1])
    (h3 : S128.BroadcastsInDim S1x128 ![1]) (h4 : S1x128.BroadcastsInDim S50000x128 ![0, 1]) (h5 : S_.BroadcastsInDim S50000x128 ![]) :
    FVec Ideal S50000x128 .f32 :=
  maximumf (addf (addf agg (mulf h (broadcastInDim S50000x128 ![0, 1] h2 (broadcastInDim S50000x1 ![0] h1 s))))
      (broadcastInDim S50000x128 ![0, 1] h4 (broadcastInDim S1x128 ![1] h3 b)))
    (broadcastInDim S50000x128 ![] h5 (constant S_ .f32 0x00000000#32))

theorem offsets_zero : (![0, 0] : Fin 2 → Nat) = fun _ => 0 := funext fun a => by fin_cases a <;> rfl

/-- The printed index maps over the grid: every row-tiled window's block is the point's number, the bias is one block. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (p, q) of the block's combination is entry (P, q) of the whole arrays' when the block's entries are theirs. -/
theorem payload_entry (agg h : FVec Ideal S50000x128 .f32) (s : FVec Ideal S50000 .f32) (b : FVec Ideal S128 .f32)
    (h1 : S50000.BroadcastsInDim S50000x1 ![0]) (h2 : S50000x1.BroadcastsInDim S50000x128 ![0, 1])
    (h3 : S128.BroadcastsInDim S1x128 ![1]) (h4 : S1x128.BroadcastsInDim S50000x128 ![0, 1]) (h5 : S_.BroadcastsInDim S50000x128 ![])
    (x0 x1 : Vec Ideal S5000x128 .f32) (x2 : Vec Ideal S5000x1 .f32) (x3 : Vec Ideal S1x128 .f32)
    (P : Fin 50000) (p : Fin 5000) (q : Fin 128)
    (e0 : x0 (ix2 p q) = agg (ix2 P q)) (e1 : x1 (ix2 p q) = h (ix2 P q))
    (e2 : x2 (ix2 p (0 : Fin 1)) = s (ix1 P)) (e3 : x3 (ix2 (0 : Fin 1) q) = b (ix1 q)) :
    k1_pay1 x0 x1 x2 x3 (ix2 p q) = layer agg h s b h1 h2 h3 h4 h5 (ix2 P q) := by
  have r1 : broadcastInDim S50000x128 ![0, 1] h2 (broadcastInDim S50000x1 ![0] h1 s) (ix2 P q) = s (ix1 P) :=
    (Cert.Lib.RowNorm.inDimColRep_apply _ h2 P q).trans (Cert.Lib.RowNorm.inDimCol_apply s h1 P 0)
  have r2 : broadcastInDim S50000x128 ![0, 1] h4 (broadcastInDim S1x128 ![1] h3 b) (ix2 P q) = b (ix1 q) :=
    Cert.Lib.AffineRows.inDimRow_apply b h3 h4 P q
  have r3 : broadcastInDim S50000x128 ![] h5 (constant (F := Ideal) S_ .f32 0x00000000#32) (ix2 P q) = Ideal.ofBits .f32 0x00000000#32 :=
    Cert.Lib.RowNorm.inDimConst_apply _ h5 _
  unfold k1_pay1 layer
  simp only [r1, r2, r3, maximumf_apply, addf_apply, mulf_apply, broadcast_apply, shapeCast_self,
    Idealize.ShloMosaic.ValueKeepdims.broadcastTo_a1_ab_apply, broadcastTo_1b_ab_apply,
    Cert.Lib.RowNorm.inDimColRep_apply, Cert.Lib.RowNorm.inDimCol_apply, Cert.Lib.AffineRows.inDimRow_apply,
    Cert.Lib.RowNorm.inDimConst_apply, e0, e1, e2, e3]
  rfl

/-- The same at any index j of the block and i of the array. -/
theorem payload_at (agg h : FVec Ideal S50000x128 .f32) (s : FVec Ideal S50000 .f32) (b : FVec Ideal S128 .f32)
    (h1 : S50000.BroadcastsInDim S50000x1 ![0]) (h2 : S50000x1.BroadcastsInDim S50000x128 ![0, 1])
    (h3 : S128.BroadcastsInDim S1x128 ![1]) (h4 : S1x128.BroadcastsInDim S50000x128 ![0, 1]) (h5 : S_.BroadcastsInDim S50000x128 ![])
    (x0 x1 : Vec Ideal S5000x128 .f32) (x2 : Vec Ideal S5000x1 .f32) (x3 : Vec Ideal S1x128 .f32)
    (j : S5000x128.Idx) (i : S50000x128.Idx)
    (e0 : x0 j = agg i) (e1 : x1 j = h i)
    (e2 : x2 (ix2 (⟨(j 0).val, (j 0).isLt⟩ : Fin 5000) (0 : Fin 1)) = s (ix1 (⟨(i 0).val, (i 0).isLt⟩ : Fin 50000)))
    (e3 : x3 (ix2 (0 : Fin 1) (⟨(j 1).val, (j 1).isLt⟩ : Fin 128)) = b (ix1 (⟨(i 1).val, (i 1).isLt⟩ : Fin 128)))
    (hcol : (i 1).val = (j 1).val) :
    k1_pay1 x0 x1 x2 x3 j = layer agg h s b h1 h2 h3 h4 h5 i := by
  obtain ⟨p, q, rfl⟩ : ∃ (p : Fin 5000) (q : Fin 128), j = ix2 p q := ⟨j 0, j 1, eq_ix2 j⟩
  obtain ⟨P, Q, rfl⟩ : ∃ (P : Fin 50000) (Q : Fin 128), i = ix2 P Q := ⟨i 0, i 1, eq_ix2 i⟩
  obtain rfl : Q = q := Fin.ext hcol
  exact payload_entry agg h s b h1 h2 h3 h4 h5 x0 x1 x2 x3 P p Q e0 e1 e2 e3

/-- What point t writes back is block t of the whole arrays' combination. -/
theorem flushed_eq (c : Dev nD) (agg h : FVec Ideal S50000x128 .f32) (s : FVec Ideal S50000 .f32) (b : FVec Ideal S128 .f32)
    (h1 : S50000.BroadcastsInDim S50000x1 ![0]) (h2 : S50000x1.BroadcastsInDim S50000x128 ![0, 1])
    (h3 : S128.BroadcastsInDim S1x128 ![1]) (h4 : S1x128.BroadcastsInDim S50000x128 ![0, 1]) (h5 : S_.BroadcastsInDim S50000x128 ![])
    (hs : S50000.ShapeCasts S50000x1) (hb : S128.ShapeCasts S1x128)
    (hagg : V c main_v43 = agg) (hh : V c main_v30 = h) (hcolumn : V c main_v44 = shapeCast S50000x1 s hs)
    (hrow : V c main_v45 = shapeCast S1x128 b hb) (t : Fin cfg1.N) :
    (dat1 V c).flushed 4 t = ((cfg1.win 4).blk t).view.read (Elt Ideal) (layer agg h s b h1 h2 h3 h4 h5) := by
  show (cfg1.win 4).cut (grid1.coords t) ((dat1 V c).after 4 t) = _
  rw [after1_4]
  unfold out1_4
  rw [View.canon_unit_zero offsets_zero]
  simp only [View.ld_unit_zero (S := S5000x128) offsets_zero, View.ld_unit_zero (S := S5000x1) offsets_zero,
    View.ld_unit_zero (S := S1x128) offsets_zero]
  obtain ⟨a0, a1, b0, b1, c0, c1, d0, d1, o0, o1⟩ := block_index t
  funext j
  show k1_pay1 (iblk1 V c 0 t) (iblk1 V c 1 t) (iblk1 V c 2 t) (iblk1 V c 3 t) j
    = layer agg h s b h1 h2 h3 h4 h5 (((cfg1.win 4).blk t).view.emb j)
  refine payload_at agg h s b h1 h2 h3 h4 h5 (iblk1 V c 0 t) (iblk1 V c 1 t) (iblk1 V c 2 t) (iblk1 V c 3 t) j
    (((cfg1.win 4).blk t).view.emb j) ?_ ?_ ?_ ?_ ?_
  · unfold iblk1
    show V c main_v43 (((cfg1.win 0).blk t).view.emb j) = agg _
    rw [hagg]
    refine congrArg agg ?_
    funext a; apply Fin.ext
    match a with
    | ⟨0, _⟩ =>
      show win1_0.index t (0 : Fin 2) * 5000 + 1 * (j 0).val = win1_4.index t (0 : Fin 2) * 5000 + 1 * (j 0).val
      rw [a0, o0]
    | ⟨1, _⟩ =>
      show win1_0.index t (1 : Fin 2) * 128 + 1 * (j 1).val = win1_4.index t (1 : Fin 2) * 128 + 1 * (j 1).val
      rw [a1, o1]
  · unfold iblk1
    show V c main_v30 (((cfg1.win 1).blk t).view.emb j) = h _
    rw [hh]
    refine congrArg h ?_
    funext a; apply Fin.ext
    match a with
    | ⟨0, _⟩ =>
      show win1_1.index t (0 : Fin 2) * 5000 + 1 * (j 0).val = win1_4.index t (0 : Fin 2) * 5000 + 1 * (j 0).val
      rw [b0, o0]
    | ⟨1, _⟩ =>
      show win1_1.index t (1 : Fin 2) * 128 + 1 * (j 1).val = win1_4.index t (1 : Fin 2) * 128 + 1 * (j 1).val
      rw [b1, o1]
  · unfold iblk1
    show V c main_v44 (((cfg1.win 2).blk t).view.emb (ix2 (⟨(j 0).val, (j 0).isLt⟩ : Fin 5000) (0 : Fin 1))) = s _
    rw [hcolumn]
    have hlt : win1_4.index t (0 : Fin 2) * 5000 + 1 * (j 0).val < 50000 :=
      (((cfg1.win 4).blk t).view.emb j 0).isLt
    refine (congrArg (shapeCast S50000x1 s hs) (?_ : _ = ix2 (⟨win1_4.index t (0 : Fin 2) * 5000 + 1 * (j 0).val, hlt⟩ : Fin 50000) (0 : Fin 1))).trans
      (Idealize.ShloMosaic.ValueKeepdims.shapeCast_a_a1_apply s hs _ _)
    funext a; apply Fin.ext
    match a with
    | ⟨0, _⟩ =>
      show win1_2.index t (0 : Fin 2) * 5000 + 1 * (j 0).val = win1_4.index t (0 : Fin 2) * 5000 + 1 * (j 0).val
      rw [c0, o0]
    | ⟨1, _⟩ =>
      show win1_2.index t (1 : Fin 2) * 1 + 1 * 0 = 0
      rw [c1]
  · unfold iblk1
    show V c main_v45 (((cfg1.win 3).blk t).view.emb (ix2 (0 : Fin 1) (⟨(j 1).val, (j 1).isLt⟩ : Fin 128))) = b _
    rw [hrow]
    have hlt : win1_4.index t (1 : Fin 2) * 128 + 1 * (j 1).val < 128 :=
      (((cfg1.win 4).blk t).view.emb j 1).isLt
    refine (congrArg (shapeCast S1x128 b hb) (?_ : _ = ix2 (0 : Fin 1) (⟨win1_4.index t (1 : Fin 2) * 128 + 1 * (j 1).val, hlt⟩ : Fin 128))).trans
      (shapeCast_a_1a_apply b hb _ _)
    funext a; apply Fin.ext
    match a with
    | ⟨0, _⟩ =>
      show win1_3.index t (0 : Fin 2) * 1 + 1 * 0 = 0
      rw [d0]
    | ⟨1, _⟩ =>
      show win1_3.index t (1 : Fin 2) * 128 + 1 * (j 1).val = win1_4.index t (1 : Fin 2) * 128 + 1 * (j 1).val
      rw [d1, o1]
  · show win1_4.index t (1 : Fin 2) * 128 + 1 * (j 1).val = (j 1).val
    rw [o1]; omega

/-- An index of the output array is in point t's block iff each coordinate is in the block's range on its axis. -/
theorem mem_block (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v46).slice (win1_4.rect t)).set ↔ _
  rw [View.set_slice_whole, Rect.mem_set_unit]
  exact Iff.rfl

/-- Row r of the output lies in the block of point r / 5000: the ten blocks cover the array. -/
theorem covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, -, -, o0, o1⟩ := block_index ⟨(i 0).val / 5000, ht⟩
  have o0' : win1_4.index ⟨(i 0).val / 5000, ht⟩ (0 : Fin 2) = (i 0).val / 5000 := o0
  refine ⟨⟨(i 0).val / 5000, ht⟩, flush1_4 _, ?_⟩
  rw [mem_block]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [o0']; omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [o1]; omega

/-- The output array after the region is the host's combination of the input arrays as the region found them. -/
theorem result (c : Dev nD) (agg h : FVec Ideal S50000x128 .f32) (s : FVec Ideal S50000 .f32) (b : FVec Ideal S128 .f32)
    (h1 : S50000.BroadcastsInDim S50000x1 ![0]) (h2 : S50000x1.BroadcastsInDim S50000x128 ![0, 1])
    (h3 : S128.BroadcastsInDim S1x128 ![1]) (h4 : S1x128.BroadcastsInDim S50000x128 ![0, 1]) (h5 : S_.BroadcastsInDim S50000x128 ![])
    (hs : S50000.ShapeCasts S50000x1) (hb : S128.ShapeCasts S1x128)
    (hagg : V c main_v43 = agg) (hh : V c main_v30 = h) (hcolumn : V c main_v44 = shapeCast S50000x1 s hs)
    (hrow : V c main_v45 = shapeCast S1x128 b hb) :
    (dat1 V c).arrAt 4 cfg1.N = layer agg h s b h1 h2 h3 h4 h5 :=
  (dat1 V c).arrAt_eq_of_cover 4 _
    (fun t _ => flushed_eq V c agg h s b h1 h2 h3 h4 h5 hs hb hagg hh hcolumn hrow t) covered

end Cert.KernelIdeal.Combine1

end
-- ==== Proof.Combine3.lean ====
/-
  Region 3 of the kernel program: the layer's combination, tiled over rows.

  Point t of the ten-point grid takes rows 5000·t … 5000·t + 4999 of the aggregate and of the dense product, the same
  rows of the self-loop scale (a column [50000, 1]) and the one row [1, 128] of the bias, and writes
  max ((agg + h · scale) + bias, 0) to the same rows of the output.  Entry (P, q) of the output is therefore
  max ((agg (P, q) + h (P, q) · s P) + b q, 0), where the column is the vector s reshaped and the row the vector b reshaped:
  the host's own combination of the whole arrays (the scale and the bias put in place by two broadcasts each, the
  zero a broadcast constant), entry for entry.  Stated at any contents V of the buffers on entry to the region.
-/
import proofs.«179435_j14259291423189_1_alg».proof.Proof.Gen.KernelIdeal.Frame
import proofs.«179435_j14259291423189_1_alg».proof.Proof.LibAffineRows
import proofs.«179435_j14259291423189_1_alg».proof.Proof.LibRowNorm
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)

namespace Cert.KernelIdeal.Combine3

open Cert.KernelIdeal Cert.KernelIdeal.Gen Idealize.ShloMosaic.ValueIdx

variable (V : (c : Dev nD) → (b : Ref sig .tc) → Buf (Elt Ideal) ((c : Thread nD τ).loc b))

/-- The layer's combination of whole arrays, as the host writes it. -/
def layer (agg h : FVec Ideal S50000x128 .f32) (s : FVec Ideal S50000 .f32) (b : FVec Ideal S128 .f32)
    (h1 : S50000.BroadcastsInDim S50000x1 ![0]) (h2 : S50000x1.BroadcastsInDim S50000x128 ![0, 1])
    (h3 : S128.BroadcastsInDim S1x128 ![1]) (h4 : S1x128.BroadcastsInDim S50000x128 ![0, 1]) (h5 : S_.BroadcastsInDim S50000x128 ![]) :
    FVec Ideal S50000x128 .f32 :=
  maximumf (addf (addf agg (mulf h (broadcastInDim S50000x128 ![0, 1] h2 (broadcastInDim S50000x1 ![0] h1 s))))
      (broadcastInDim S50000x128 ![0, 1] h4 (broadcastInDim S1x128 ![1] h3 b)))
    (broadcastInDim S50000x128 ![] h5 (constant S_ .f32 0x00000000#32))

theorem offsets_zero : (![0, 0] : Fin 2 → Nat) = fun _ => 0 := funext fun a => by fin_cases a <;> rfl

/-- The printed index maps over the grid: every row-tiled window's block is the point's number, the bias is one block. -/
theorem block_index : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Entry (p, q) of the block's combination is entry (P, q) of the whole arrays' when the block's entries are theirs. -/
theorem payload_entry (agg h : FVec Ideal S50000x128 .f32) (s : FVec Ideal S50000 .f32) (b : FVec Ideal S128 .f32)
    (h1 : S50000.BroadcastsInDim S50000x1 ![0]) (h2 : S50000x1.BroadcastsInDim S50000x128 ![0, 1])
    (h3 : S128.BroadcastsInDim S1x128 ![1]) (h4 : S1x128.BroadcastsInDim S50000x128 ![0, 1]) (h5 : S_.BroadcastsInDim S50000x128 ![])
    (x0 x1 : Vec Ideal S5000x128 .f32) (x2 : Vec Ideal S5000x1 .f32) (x3 : Vec Ideal S1x128 .f32)
    (P : Fin 50000) (p : Fin 5000) (q : Fin 128)
    (e0 : x0 (ix2 p q) = agg (ix2 P q)) (e1 : x1 (ix2 p q) = h (ix2 P q))
    (e2 : x2 (ix2 p (0 : Fin 1)) = s (ix1 P)) (e3 : x3 (ix2 (0 : Fin 1) q) = b (ix1 q)) :
    k3_pay1 x0 x1 x2 x3 (ix2 p q) = layer agg h s b h1 h2 h3 h4 h5 (ix2 P q) := by
  have r1 : broadcastInDim S50000x128 ![0, 1] h2 (broadcastInDim S50000x1 ![0] h1 s) (ix2 P q) = s (ix1 P) :=
    (Cert.Lib.RowNorm.inDimColRep_apply _ h2 P q).trans (Cert.Lib.RowNorm.inDimCol_apply s h1 P 0)
  have r2 : broadcastInDim S50000x128 ![0, 1] h4 (broadcastInDim S1x128 ![1] h3 b) (ix2 P q) = b (ix1 q) :=
    Cert.Lib.AffineRows.inDimRow_apply b h3 h4 P q
  have r3 : broadcastInDim S50000x128 ![] h5 (constant (F := Ideal) S_ .f32 0x00000000#32) (ix2 P q) = Ideal.ofBits .f32 0x00000000#32 :=
    Cert.Lib.RowNorm.inDimConst_apply _ h5 _
  unfold k3_pay1 layer
  simp only [r1, r2, r3, maximumf_apply, addf_apply, mulf_apply, broadcast_apply, shapeCast_self,
    Idealize.ShloMosaic.ValueKeepdims.broadcastTo_a1_ab_apply, broadcastTo_1b_ab_apply,
    Cert.Lib.RowNorm.inDimColRep_apply, Cert.Lib.RowNorm.inDimCol_apply, Cert.Lib.AffineRows.inDimRow_apply,
    Cert.Lib.RowNorm.inDimConst_apply, e0, e1, e2, e3]
  rfl

/-- The same at any index j of the block and i of the array. -/
theorem payload_at (agg h : FVec Ideal S50000x128 .f32) (s : FVec Ideal S50000 .f32) (b : FVec Ideal S128 .f32)
    (h1 : S50000.BroadcastsInDim S50000x1 ![0]) (h2 : S50000x1.BroadcastsInDim S50000x128 ![0, 1])
    (h3 : S128.BroadcastsInDim S1x128 ![1]) (h4 : S1x128.BroadcastsInDim S50000x128 ![0, 1]) (h5 : S_.BroadcastsInDim S50000x128 ![])
    (x0 x1 : Vec Ideal S5000x128 .f32) (x2 : Vec Ideal S5000x1 .f32) (x3 : Vec Ideal S1x128 .f32)
    (j : S5000x128.Idx) (i : S50000x128.Idx)
    (e0 : x0 j = agg i) (e1 : x1 j = h i)
    (e2 : x2 (ix2 (⟨(j 0).val, (j 0).isLt⟩ : Fin 5000) (0 : Fin 1)) = s (ix1 (⟨(i 0).val, (i 0).isLt⟩ : Fin 50000)))
    (e3 : x3 (ix2 (0 : Fin 1) (⟨(j 1).val, (j 1).isLt⟩ : Fin 128)) = b (ix1 (⟨(i 1).val, (i 1).isLt⟩ : Fin 128)))
    (hcol : (i 1).val = (j 1).val) :
    k3_pay1 x0 x1 x2 x3 j = layer agg h s b h1 h2 h3 h4 h5 i := by
  obtain ⟨p, q, rfl⟩ : ∃ (p : Fin 5000) (q : Fin 128), j = ix2 p q := ⟨j 0, j 1, eq_ix2 j⟩
  obtain ⟨P, Q, rfl⟩ : ∃ (P : Fin 50000) (Q : Fin 128), i = ix2 P Q := ⟨i 0, i 1, eq_ix2 i⟩
  obtain rfl : Q = q := Fin.ext hcol
  exact payload_entry agg h s b h1 h2 h3 h4 h5 x0 x1 x2 x3 P p Q e0 e1 e2 e3

/-- What point t writes back is block t of the whole arrays' combination. -/
theorem flushed_eq (c : Dev nD) (agg h : FVec Ideal S50000x128 .f32) (s : FVec Ideal S50000 .f32) (b : FVec Ideal S128 .f32)
    (h1 : S50000.BroadcastsInDim S50000x1 ![0]) (h2 : S50000x1.BroadcastsInDim S50000x128 ![0, 1])
    (h3 : S128.BroadcastsInDim S1x128 ![1]) (h4 : S1x128.BroadcastsInDim S50000x128 ![0, 1]) (h5 : S_.BroadcastsInDim S50000x128 ![])
    (hs : S50000.ShapeCasts S50000x1) (hb : S128.ShapeCasts S1x128)
    (hagg : V c main_v60 = agg) (hh : V c main_v47 = h) (hcolumn : V c main_v61 = shapeCast S50000x1 s hs)
    (hrow : V c main_v62 = shapeCast S1x128 b hb) (t : Fin cfg3.N) :
    (dat3 V c).flushed 4 t = ((cfg3.win 4).blk t).view.read (Elt Ideal) (layer agg h s b h1 h2 h3 h4 h5) := by
  show (cfg3.win 4).cut (grid3.coords t) ((dat3 V c).after 4 t) = _
  rw [after3_4]
  unfold out3_4
  rw [View.canon_unit_zero offsets_zero]
  simp only [View.ld_unit_zero (S := S5000x128) offsets_zero, View.ld_unit_zero (S := S5000x1) offsets_zero,
    View.ld_unit_zero (S := S1x128) offsets_zero]
  obtain ⟨a0, a1, b0, b1, c0, c1, d0, d1, o0, o1⟩ := block_index t
  funext j
  show k3_pay1 (iblk3 V c 0 t) (iblk3 V c 1 t) (iblk3 V c 2 t) (iblk3 V c 3 t) j
    = layer agg h s b h1 h2 h3 h4 h5 (((cfg3.win 4).blk t).view.emb j)
  refine payload_at agg h s b h1 h2 h3 h4 h5 (iblk3 V c 0 t) (iblk3 V c 1 t) (iblk3 V c 2 t) (iblk3 V c 3 t) j
    (((cfg3.win 4).blk t).view.emb j) ?_ ?_ ?_ ?_ ?_
  · unfold iblk3
    show V c main_v60 (((cfg3.win 0).blk t).view.emb j) = agg _
    rw [hagg]
    refine congrArg agg ?_
    funext a; apply Fin.ext
    match a with
    | ⟨0, _⟩ =>
      show win3_0.index t (0 : Fin 2) * 5000 + 1 * (j 0).val = win3_4.index t (0 : Fin 2) * 5000 + 1 * (j 0).val
      rw [a0, o0]
    | ⟨1, _⟩ =>
      show win3_0.index t (1 : Fin 2) * 128 + 1 * (j 1).val = win3_4.index t (1 : Fin 2) * 128 + 1 * (j 1).val
      rw [a1, o1]
  · unfold iblk3
    show V c main_v47 (((cfg3.win 1).blk t).view.emb j) = h _
    rw [hh]
    refine congrArg h ?_
    funext a; apply Fin.ext
    match a with
    | ⟨0, _⟩ =>
      show win3_1.index t (0 : Fin 2) * 5000 + 1 * (j 0).val = win3_4.index t (0 : Fin 2) * 5000 + 1 * (j 0).val
      rw [b0, o0]
    | ⟨1, _⟩ =>
      show win3_1.index t (1 : Fin 2) * 128 + 1 * (j 1).val = win3_4.index t (1 : Fin 2) * 128 + 1 * (j 1).val
      rw [b1, o1]
  · unfold iblk3
    show V c main_v61 (((cfg3.win 2).blk t).view.emb (ix2 (⟨(j 0).val, (j 0).isLt⟩ : Fin 5000) (0 : Fin 1))) = s _
    rw [hcolumn]
    have hlt : win3_4.index t (0 : Fin 2) * 5000 + 1 * (j 0).val < 50000 :=
      (((cfg3.win 4).blk t).view.emb j 0).isLt
    refine (congrArg (shapeCast S50000x1 s hs) (?_ : _ = ix2 (⟨win3_4.index t (0 : Fin 2) * 5000 + 1 * (j 0).val, hlt⟩ : Fin 50000) (0 : Fin 1))).trans
      (Idealize.ShloMosaic.ValueKeepdims.shapeCast_a_a1_apply s hs _ _)
    funext a; apply Fin.ext
    match a with
    | ⟨0, _⟩ =>
      show win3_2.index t (0 : Fin 2) * 5000 + 1 * (j 0).val = win3_4.index t (0 : Fin 2) * 5000 + 1 * (j 0).val
      rw [c0, o0]
    | ⟨1, _⟩ =>
      show win3_2.index t (1 : Fin 2) * 1 + 1 * 0 = 0
      rw [c1]
  · unfold iblk3
    show V c main_v62 (((cfg3.win 3).blk t).view.emb (ix2 (0 : Fin 1) (⟨(j 1).val, (j 1).isLt⟩ : Fin 128))) = b _
    rw [hrow]
    have hlt : win3_4.index t (1 : Fin 2) * 128 + 1 * (j 1).val < 128 :=
      (((cfg3.win 4).blk t).view.emb j 1).isLt
    refine (congrArg (shapeCast S1x128 b hb) (?_ : _ = ix2 (0 : Fin 1) (⟨win3_4.index t (1 : Fin 2) * 128 + 1 * (j 1).val, hlt⟩ : Fin 128))).trans
      (shapeCast_a_1a_apply b hb _ _)
    funext a; apply Fin.ext
    match a with
    | ⟨0, _⟩ =>
      show win3_3.index t (0 : Fin 2) * 1 + 1 * 0 = 0
      rw [d0]
    | ⟨1, _⟩ =>
      show win3_3.index t (1 : Fin 2) * 128 + 1 * (j 1).val = win3_4.index t (1 : Fin 2) * 128 + 1 * (j 1).val
      rw [d1, o1]
  · show win3_4.index t (1 : Fin 2) * 128 + 1 * (j 1).val = (j 1).val
    rw [o1]; omega

/-- An index of the output array is in point t's block iff each coordinate is in the block's range on its axis. -/
theorem mem_block (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v63).slice (win3_4.rect t)).set ↔ _
  rw [View.set_slice_whole, Rect.mem_set_unit]
  exact Iff.rfl

/-- Row r of the output lies in the block of point r / 5000: the ten blocks cover the array. -/
theorem covered (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  have ht : (i 0).val / 5000 < cfg3.N := by rw [hN]; omega
  obtain ⟨-, -, -, -, -, -, -, -, o0, o1⟩ := block_index ⟨(i 0).val / 5000, ht⟩
  have o0' : win3_4.index ⟨(i 0).val / 5000, ht⟩ (0 : Fin 2) = (i 0).val / 5000 := o0
  refine ⟨⟨(i 0).val / 5000, ht⟩, flush3_4 _, ?_⟩
  rw [mem_block]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    rw [o0']; omega
  | ⟨1, _⟩ =>
    show win3_4.index ⟨(i 0).val / 5000, ht⟩ (1 : Fin 2) * 128 ≤ (i 1).val
      ∧ (i 1).val < win3_4.index ⟨(i 0).val / 5000, ht⟩ (1 : Fin 2) * 128 + 128
    rw [o1]; omega

/-- The output array after the region is the host's combination of the input arrays as the region found them. -/
theorem result (c : Dev nD) (agg h : FVec Ideal S50000x128 .f32) (s : FVec Ideal S50000 .f32) (b : FVec Ideal S128 .f32)
    (h1 : S50000.BroadcastsInDim S50000x1 ![0]) (h2 : S50000x1.BroadcastsInDim S50000x128 ![0, 1])
    (h3 : S128.BroadcastsInDim S1x128 ![1]) (h4 : S1x128.BroadcastsInDim S50000x128 ![0, 1]) (h5 : S_.BroadcastsInDim S50000x128 ![])
    (hs : S50000.ShapeCasts S50000x1) (hb : S128.ShapeCasts S1x128)
    (hagg : V c main_v60 = agg) (hh : V c main_v47 = h) (hcolumn : V c main_v61 = shapeCast S50000x1 s hs)
    (hrow : V c main_v62 = shapeCast S1x128 b hb) :
    (dat3 V c).arrAt 4 cfg3.N = layer agg h s b h1 h2 h3 h4 h5 :=
  (dat3 V c).arrAt_eq_of_cover 4 _
    (fun t _ => flushed_eq V c agg h s b h1 h2 h3 h4 h5 hs hb hagg hh hcolumn hrow t) covered

end Cert.KernelIdeal.Combine3

end
-- ==== Proof.Combine5.lean ====
/-
  Region 5 of the kernel program: the layer's combination, tiled over rows.

  Point t of the ten-point grid takes rows 5000·t … 5000·t + 4999 of the aggregate and of the dense product, the same
  rows of the self-loop scale (a column [50000, 1]) and the one row [1, 64] of the bias, and writes
  (agg + h · scale) + bias to the same rows of the output.  Entry (P, q) of the output is therefore
  (agg (P, q) + h (P, q) · s P) + b q, where the column is the vector s reshaped and the row the vector b reshaped:
  the host's own combination of the whole arrays (the scale and the bias put in place by two broadcasts each), entry for entry.  Stated at any contents V of the buffers on entry to the region.
-/
import proofs.«179435_j14259291423189_1_alg».proof.Proof.Gen.KernelIdeal.Frame
import proofs.«179435_j14259291423189_1_alg».proof.Proof.LibAffineRows
import proofs.«179435_j14259291423189_1_alg».proof.Proof.LibRowNorm
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)

namespace Cert.KernelIdeal.Combine5

open Cert.KernelIdeal Cert.KernelIdeal.Gen Idealize.ShloMosaic.ValueIdx

variable (V : (c : Dev nD) → (b : Ref sig .tc) → Buf (Elt Ideal) ((c : Thread nD τ).loc b))

/-- The layer's combination of whole arrays, as the host writes it. -/
def layer (agg h : FVec Ideal S50000x64 .f32) (s : FVec Ideal S50000 .f32) (b : FVec Ideal S64 .f32)
    (h1 : S50000.BroadcastsInDim S50000x1 ![0]) (h2 : S50000x1.BroadcastsInDim S50000x64 ![0, 1])
    (h3 : S64.BroadcastsInDim S1x64 ![1]) (h4 : S1x64.BroadcastsInDim S50000x64 ![0, 1]) :
    FVec Ideal S50000x64 .f32 :=
  addf (addf agg (mulf h (broadcastInDim S50000x64 ![0, 1] h2 (broadcastInDim S50000x1 ![0] h1 s))))
    (broadcastInDim S50000x64 ![0, 1] h4 (broadcastInDim S1x64 ![1] h3 b))

theorem offsets_zero : (![0, 0] : Fin 2 → Nat) = fun _ => 0 := funext fun a => by fin_cases a <;> rfl

/-- The printed index maps over the grid: every row-tiled window's block is the point's number, the bias is one block. -/
theorem block_index : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Entry (p, q) of the block's combination is entry (P, q) of the whole arrays' when the block's entries are theirs. -/
theorem payload_entry (agg h : FVec Ideal S50000x64 .f32) (s : FVec Ideal S50000 .f32) (b : FVec Ideal S64 .f32)
    (h1 : S50000.BroadcastsInDim S50000x1 ![0]) (h2 : S50000x1.BroadcastsInDim S50000x64 ![0, 1])
    (h3 : S64.BroadcastsInDim S1x64 ![1]) (h4 : S1x64.BroadcastsInDim S50000x64 ![0, 1])
    (x0 x1 : Vec Ideal S5000x64 .f32) (x2 : Vec Ideal S5000x1 .f32) (x3 : Vec Ideal S1x64 .f32)
    (P : Fin 50000) (p : Fin 5000) (q : Fin 64)
    (e0 : x0 (ix2 p q) = agg (ix2 P q)) (e1 : x1 (ix2 p q) = h (ix2 P q))
    (e2 : x2 (ix2 p (0 : Fin 1)) = s (ix1 P)) (e3 : x3 (ix2 (0 : Fin 1) q) = b (ix1 q)) :
    k5_pay1 x0 x1 x2 x3 (ix2 p q) = layer agg h s b h1 h2 h3 h4 (ix2 P q) := by
  have r1 : broadcastInDim S50000x64 ![0, 1] h2 (broadcastInDim S50000x1 ![0] h1 s) (ix2 P q) = s (ix1 P) :=
    (Cert.Lib.RowNorm.inDimColRep_apply _ h2 P q).trans (Cert.Lib.RowNorm.inDimCol_apply s h1 P 0)
  have r2 : broadcastInDim S50000x64 ![0, 1] h4 (broadcastInDim S1x64 ![1] h3 b) (ix2 P q) = b (ix1 q) :=
    Cert.Lib.AffineRows.inDimRow_apply b h3 h4 P q
  unfold k5_pay1 layer
  simp only [r1, r2, maximumf_apply, addf_apply, mulf_apply, broadcast_apply, shapeCast_self,
    Idealize.ShloMosaic.ValueKeepdims.broadcastTo_a1_ab_apply, broadcastTo_1b_ab_apply,
    Cert.Lib.RowNorm.inDimColRep_apply, Cert.Lib.RowNorm.inDimCol_apply, Cert.Lib.AffineRows.inDimRow_apply,
    Cert.Lib.RowNorm.inDimConst_apply, e0, e1, e2, e3]

/-- The same at any index j of the block and i of the array. -/
theorem payload_at (agg h : FVec Ideal S50000x64 .f32) (s : FVec Ideal S50000 .f32) (b : FVec Ideal S64 .f32)
    (h1 : S50000.BroadcastsInDim S50000x1 ![0]) (h2 : S50000x1.BroadcastsInDim S50000x64 ![0, 1])
    (h3 : S64.BroadcastsInDim S1x64 ![1]) (h4 : S1x64.BroadcastsInDim S50000x64 ![0, 1])
    (x0 x1 : Vec Ideal S5000x64 .f32) (x2 : Vec Ideal S5000x1 .f32) (x3 : Vec Ideal S1x64 .f32)
    (j : S5000x64.Idx) (i : S50000x64.Idx)
    (e0 : x0 j = agg i) (e1 : x1 j = h i)
    (e2 : x2 (ix2 (⟨(j 0).val, (j 0).isLt⟩ : Fin 5000) (0 : Fin 1)) = s (ix1 (⟨(i 0).val, (i 0).isLt⟩ : Fin 50000)))
    (e3 : x3 (ix2 (0 : Fin 1) (⟨(j 1).val, (j 1).isLt⟩ : Fin 64)) = b (ix1 (⟨(i 1).val, (i 1).isLt⟩ : Fin 64)))
    (hcol : (i 1).val = (j 1).val) :
    k5_pay1 x0 x1 x2 x3 j = layer agg h s b h1 h2 h3 h4 i := by
  obtain ⟨p, q, rfl⟩ : ∃ (p : Fin 5000) (q : Fin 64), j = ix2 p q := ⟨j 0, j 1, eq_ix2 j⟩
  obtain ⟨P, Q, rfl⟩ : ∃ (P : Fin 50000) (Q : Fin 64), i = ix2 P Q := ⟨i 0, i 1, eq_ix2 i⟩
  obtain rfl : Q = q := Fin.ext hcol
  exact payload_entry agg h s b h1 h2 h3 h4 x0 x1 x2 x3 P p Q e0 e1 e2 e3

/-- What point t writes back is block t of the whole arrays' combination. -/
theorem flushed_eq (c : Dev nD) (agg h : FVec Ideal S50000x64 .f32) (s : FVec Ideal S50000 .f32) (b : FVec Ideal S64 .f32)
    (h1 : S50000.BroadcastsInDim S50000x1 ![0]) (h2 : S50000x1.BroadcastsInDim S50000x64 ![0, 1])
    (h3 : S64.BroadcastsInDim S1x64 ![1]) (h4 : S1x64.BroadcastsInDim S50000x64 ![0, 1])
    (hs : S50000.ShapeCasts S50000x1) (hb : S64.ShapeCasts S1x64)
    (hagg : V c main_v77 = agg) (hh : V c main_v64 = h) (hcolumn : V c main_v78 = shapeCast S50000x1 s hs)
    (hrow : V c main_v79 = shapeCast S1x64 b hb) (t : Fin cfg5.N) :
    (dat5 V c).flushed 4 t = ((cfg5.win 4).blk t).view.read (Elt Ideal) (layer agg h s b h1 h2 h3 h4) := by
  show (cfg5.win 4).cut (grid5.coords t) ((dat5 V c).after 4 t) = _
  rw [after5_4]
  unfold out5_4
  rw [View.canon_unit_zero offsets_zero]
  simp only [View.ld_unit_zero (S := S5000x64) offsets_zero, View.ld_unit_zero (S := S5000x1) offsets_zero,
    View.ld_unit_zero (S := S1x64) offsets_zero]
  obtain ⟨a0, a1, b0, b1, c0, c1, d0, d1, o0, o1⟩ := block_index t
  funext j
  show k5_pay1 (iblk5 V c 0 t) (iblk5 V c 1 t) (iblk5 V c 2 t) (iblk5 V c 3 t) j
    = layer agg h s b h1 h2 h3 h4 (((cfg5.win 4).blk t).view.emb j)
  refine payload_at agg h s b h1 h2 h3 h4 (iblk5 V c 0 t) (iblk5 V c 1 t) (iblk5 V c 2 t) (iblk5 V c 3 t) j
    (((cfg5.win 4).blk t).view.emb j) ?_ ?_ ?_ ?_ ?_
  · unfold iblk5
    show V c main_v77 (((cfg5.win 0).blk t).view.emb j) = agg _
    rw [hagg]
    refine congrArg agg ?_
    funext a; apply Fin.ext
    match a with
    | ⟨0, _⟩ =>
      show win5_0.index t (0 : Fin 2) * 5000 + 1 * (j 0).val = win5_4.index t (0 : Fin 2) * 5000 + 1 * (j 0).val
      rw [a0, o0]
    | ⟨1, _⟩ =>
      show win5_0.index t (1 : Fin 2) * 64 + 1 * (j 1).val = win5_4.index t (1 : Fin 2) * 64 + 1 * (j 1).val
      rw [a1, o1]
  · unfold iblk5
    show V c main_v64 (((cfg5.win 1).blk t).view.emb j) = h _
    rw [hh]
    refine congrArg h ?_
    funext a; apply Fin.ext
    match a with
    | ⟨0, _⟩ =>
      show win5_1.index t (0 : Fin 2) * 5000 + 1 * (j 0).val = win5_4.index t (0 : Fin 2) * 5000 + 1 * (j 0).val
      rw [b0, o0]
    | ⟨1, _⟩ =>
      show win5_1.index t (1 : Fin 2) * 64 + 1 * (j 1).val = win5_4.index t (1 : Fin 2) * 64 + 1 * (j 1).val
      rw [b1, o1]
  · unfold iblk5
    show V c main_v78 (((cfg5.win 2).blk t).view.emb (ix2 (⟨(j 0).val, (j 0).isLt⟩ : Fin 5000) (0 : Fin 1))) = s _
    rw [hcolumn]
    have hlt : win5_4.index t (0 : Fin 2) * 5000 + 1 * (j 0).val < 50000 :=
      (((cfg5.win 4).blk t).view.emb j 0).isLt
    refine (congrArg (shapeCast S50000x1 s hs) (?_ : _ = ix2 (⟨win5_4.index t (0 : Fin 2) * 5000 + 1 * (j 0).val, hlt⟩ : Fin 50000) (0 : Fin 1))).trans
      (Idealize.ShloMosaic.ValueKeepdims.shapeCast_a_a1_apply s hs _ _)
    funext a; apply Fin.ext
    match a with
    | ⟨0, _⟩ =>
      show win5_2.index t (0 : Fin 2) * 5000 + 1 * (j 0).val = win5_4.index t (0 : Fin 2) * 5000 + 1 * (j 0).val
      rw [c0, o0]
    | ⟨1, _⟩ =>
      show win5_2.index t (1 : Fin 2) * 1 + 1 * 0 = 0
      rw [c1]
  · unfold iblk5
    show V c main_v79 (((cfg5.win 3).blk t).view.emb (ix2 (0 : Fin 1) (⟨(j 1).val, (j 1).isLt⟩ : Fin 64))) = b _
    rw [hrow]
    have hlt : win5_4.index t (1 : Fin 2) * 64 + 1 * (j 1).val < 64 :=
      (((cfg5.win 4).blk t).view.emb j 1).isLt
    refine (congrArg (shapeCast S1x64 b hb) (?_ : _ = ix2 (0 : Fin 1) (⟨win5_4.index t (1 : Fin 2) * 64 + 1 * (j 1).val, hlt⟩ : Fin 64))).trans
      (shapeCast_a_1a_apply b hb _ _)
    funext a; apply Fin.ext
    match a with
    | ⟨0, _⟩ =>
      show win5_3.index t (0 : Fin 2) * 1 + 1 * 0 = 0
      rw [d0]
    | ⟨1, _⟩ =>
      show win5_3.index t (1 : Fin 2) * 64 + 1 * (j 1).val = win5_4.index t (1 : Fin 2) * 64 + 1 * (j 1).val
      rw [d1, o1]
  · show win5_4.index t (1 : Fin 2) * 64 + 1 * (j 1).val = (j 1).val
    rw [o1]; omega

/-- An index of the output array is in point t's block iff each coordinate is in the block's range on its axis. -/
theorem mem_block (t : Fin cfg5.N) (i : S50000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v80).slice (win5_4.rect t)).set ↔ _
  rw [View.set_slice_whole, Rect.mem_set_unit]
  exact Iff.rfl

/-- Row r of the output lies in the block of point r / 5000: the ten blocks cover the array. -/
theorem covered (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  have hN : cfg5.N = 10 := N_5
  have ht : (i 0).val / 5000 < cfg5.N := by rw [hN]; omega
  obtain ⟨-, -, -, -, -, -, -, -, o0, o1⟩ := block_index ⟨(i 0).val / 5000, ht⟩
  have o0' : win5_4.index ⟨(i 0).val / 5000, ht⟩ (0 : Fin 2) = (i 0).val / 5000 := o0
  refine ⟨⟨(i 0).val / 5000, ht⟩, flush5_4 _, ?_⟩
  rw [mem_block]
  intro a
  match a with
  | ⟨0, _⟩ =>
    show win5_4.index ⟨(i 0).val / 5000, ht⟩ (0 : Fin 2) * 5000 ≤ (i 0).val
      ∧ (i 0).val < win5_4.index ⟨(i 0).val / 5000, ht⟩ (0 : Fin 2) * 5000 + 5000
    rw [o0']; omega
  | ⟨1, _⟩ =>
    show win5_4.index ⟨(i 0).val / 5000, ht⟩ (1 : Fin 2) * 64 ≤ (i 1).val
      ∧ (i 1).val < win5_4.index ⟨(i 0).val / 5000, ht⟩ (1 : Fin 2) * 64 + 64
    rw [o1]; omega

/-- The output array after the region is the host's combination of the input arrays as the region found them. -/
theorem result (c : Dev nD) (agg h : FVec Ideal S50000x64 .f32) (s : FVec Ideal S50000 .f32) (b : FVec Ideal S64 .f32)
    (h1 : S50000.BroadcastsInDim S50000x1 ![0]) (h2 : S50000x1.BroadcastsInDim S50000x64 ![0, 1])
    (h3 : S64.BroadcastsInDim S1x64 ![1]) (h4 : S1x64.BroadcastsInDim S50000x64 ![0, 1])
    (hs : S50000.ShapeCasts S50000x1) (hb : S64.ShapeCasts S1x64)
    (hagg : V c main_v77 = agg) (hh : V c main_v64 = h) (hcolumn : V c main_v78 = shapeCast S50000x1 s hs)
    (hrow : V c main_v79 = shapeCast S1x64 b hb) :
    (dat5 V c).arrAt 4 cfg5.N = layer agg h s b h1 h2 h3 h4 :=
  (dat5 V c).arrAt_eq_of_cover 4 _
    (fun t _ => flushed_eq V c agg h s b h1 h2 h3 h4 hs hb hagg hh hcolumn hrow t) covered

end Cert.KernelIdeal.Combine5

end
-- ==== Proof.Layers.lean ====
/-
  The kernel program's buffers, layer by layer, as the reference's stages of the argument arrays.

  The program is three graph-convolution layers.  A first stretch of host operations splits the edge list into its
  source and target vectors and computes, once, the degree normalisation: the weight of every edge and the self-loop
  scale of every node.  Each layer is then a region computing the dense product of the layer's input with its weight,
  a stretch of host operations gathering the product's rows along the edges, weighting them and summing them into the
  target rows, and a region combining aggregate, product, scale and bias.  The reference computes the same
  operations in the same order, recomputing the normalisation in every layer; its stages are named by the generated
  read-back of its run.  Here every buffer a later step reads is shown equal to the reference's stage of the argument
  arrays: the host stretches by reading their operations off the fold, the regions by their block lemmas.
-/
import proofs.«179435_j14259291423189_1_alg».proof.Proof.Kept
import proofs.«179435_j14259291423189_1_alg».proof.Proof.Dense0
import proofs.«179435_j14259291423189_1_alg».proof.Proof.Dense2
import proofs.«179435_j14259291423189_1_alg».proof.Proof.Dense4
import proofs.«179435_j14259291423189_1_alg».proof.Proof.Combine1
import proofs.«179435_j14259291423189_1_alg».proof.Proof.Combine3
import proofs.«179435_j14259291423189_1_alg».proof.Proof.Combine5
import proofs.«179435_j14259291423189_1_alg».proof.Proof.Gen.ReferenceIdeal.Read
import Idealize.ShloMosaic.Lib.StableHlo.Run

noncomputable section

namespace Cert.KernelIdeal.Whole

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first stretch: the edge list's two rows and the degree normalisation -/

/-- The source node of every edge. -/
theorem source (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp
  rfl

/-- The target node of every edge. -/
theorem target (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  rfl

/-- The weight of every edge: the product of the inverse square roots of its end points' degrees. -/
theorem weight (c : Dev nD) : W1 m ρ c (Proc.devRef .tc main_v28) = val_main_v29 (F := Ideal) (m ((c : Thread nD τ).loc main_arg1)) := by
  show StableHlo.after hostOps0 (W0 m ρ c) (Proc.devRef .tc main_v28) = _
  after_results_simp
  rfl

/-- The self-loop scale of every node: the inverse of its degree. -/
theorem selfScale (c : Dev nD) : W1 m ρ c (Proc.devRef .tc main_v29) = val_main_v43 (F := Ideal) (m ((c : Thread nD τ).loc main_arg1)) := by
  show StableHlo.after hostOps0 (W0 m ρ c) (Proc.devRef .tc main_v29) = _
  after_results_simp
  rfl

/-! ## Layer 1 -/

/-- The layer's dense product, written by region 0: the host's product of the layer's input and its weight. -/
theorem product1 (c : Dev nD) : W2 m ρ c (Proc.devRef .tc main_v30) = val_main_v14 (F := Ideal) (m ((c : Thread nD τ).loc main_arg0)) (m ((c : Thread nD τ).loc main_arg2)) :=
  (W2_arr m ρ c 2).trans ((Cert.KernelIdeal.Dense0.result (V1 m ρ) c _ _ (entry0_arg0 m ρ c) (entry0_arg2 m ρ c)).trans rfl)

/-- The messages gathered along the edges, weighted and summed into their destination rows. -/
theorem aggregate1 (c : Dev nD) : W3 m ρ c (Proc.devRef .tc main_v43) = val_main_v42 (F := Ideal) (m ((c : Thread nD τ).loc main_arg0)) (m ((c : Thread nD τ).loc main_arg1)) (m ((c : Thread nD τ).loc main_arg2)) := by
  show StableHlo.after hostOps1 (W2 m ρ c) (Proc.devRef .tc main_v43) = _
  after_results_simp
  rw [(at2_v1 m ρ c).trans (source m ρ c), (at2_v3 m ρ c).trans (target m ρ c),
    (at2_v28 m ρ c).trans (weight m ρ c), product1 m ρ c]
  rfl

/-- The self-loop scale as a column. -/
theorem column1 (c : Dev nD) :
    W3 m ρ c (Proc.devRef .tc main_v44) = shapeCast S50000x1 (val_main_v43 (F := Ideal) (m ((c : Thread nD τ).loc main_arg1))) shapeCasts_S50000_S50000x1 := by
  show StableHlo.after hostOps1 (W2 m ρ c) (Proc.devRef .tc main_v44) = _
  after_results
  rw [(at2_v29 m ρ c).trans (selfScale m ρ c)]
  rfl

/-- The bias as a row. -/
theorem row1 (c : Dev nD) : W3 m ρ c (Proc.devRef .tc main_v45) = shapeCast S1x128 (m ((c : Thread nD τ).loc main_arg3)) shapeCasts_S128_S1x128 := by
  show StableHlo.after hostOps1 (W2 m ρ c) (Proc.devRef .tc main_v45) = _
  after_results
  rw [at2_arg3 m ρ c]
  rfl

/-- The layer's output, written by region 1: the reference's layer 1 of the argument arrays. -/
theorem output1 (c : Dev nD) : W4 m ρ c (Proc.devRef .tc main_v46) = val_main_v51 (F := Ideal) (m ((c : Thread nD τ).loc main_arg0)) (m ((c : Thread nD τ).loc main_arg1)) (m ((c : Thread nD τ).loc main_arg2)) (m ((c : Thread nD τ).loc main_arg3)) :=
  (W4_arr m ρ c 4).trans ((Cert.KernelIdeal.Combine1.result (V3 m ρ) c _ _ _ _
    Cert.ReferenceIdeal.Facts₀.bcast_S50000_S50000x1_0 Cert.ReferenceIdeal.Facts₀.bcast_S50000x1_S50000x128_0_1 Cert.ReferenceIdeal.Facts₀.bcast_S128_S1x128_1 Cert.ReferenceIdeal.Facts₀.bcast_S1x128_S50000x128_0_1 Cert.ReferenceIdeal.Facts₀.bcast_S_S50000x128
    shapeCasts_S50000_S50000x1 shapeCasts_S128_S1x128
    (aggregate1 m ρ c) ((at3_v30 m ρ c).trans (product1 m ρ c)) (column1 m ρ c) (row1 m ρ c)).trans rfl)

/-! ## Layer 2 -/

/-- The layer's dense product, written by region 2: the host's product of the layer's input and its weight. -/
theorem product2 (c : Dev nD) : W5 m ρ c (Proc.devRef .tc main_v47) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W5_arr m ρ c 2).trans ((Cert.KernelIdeal.Dense2.result (V4 m ρ) c _ _ (output1 m ρ c) (at4_arg4 m ρ c)).trans rfl)

/-- The messages gathered along the edges, weighted and summed into their destination rows. -/
theorem aggregate2 (c : Dev nD) : W6 m ρ c (Proc.devRef .tc main_v60) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v60) = _
  after_results_simp
  rw [(at5_v1 m ρ c).trans (source m ρ c), (at5_v3 m ρ c).trans (target m ρ c),
    (at5_v28 m ρ c).trans (weight m ρ c), product2 m ρ c]
  rfl

/-- The self-loop scale as a column. -/
theorem column2 (c : Dev nD) :
    W6 m ρ c (Proc.devRef .tc main_v61) = shapeCast S50000x1 (val_main_v95 (F := Ideal) (m ((c : Thread nD τ).loc main_arg1))) shapeCasts_S50000_S50000x1 := by
  show StableHlo.after hostOps3 (W5 m ρ c) (Proc.devRef .tc main_v61) = _
  after_results
  rw [(at5_v29 m ρ c).trans (selfScale m ρ c)]
  rfl

/-- The bias as a row. -/
theorem row2 (c : Dev nD) : W6 m ρ c (Proc.devRef .tc main_v62) = shapeCast S1x128 (m ((c : Thread nD τ).loc main_arg5)) shapeCasts_S128_S1x128 := by
  show StableHlo.after hostOps3 (W5 m ρ c) (Proc.devRef .tc main_v62) = _
  after_results
  rw [at5_arg5 m ρ c]
  rfl

/-- The layer's output, written by region 3: the reference's layer 2 of the argument arrays. -/
theorem output2 (c : Dev nD) : W7 m ρ c (Proc.devRef .tc main_v63) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 4).trans ((Cert.KernelIdeal.Combine3.result (V6 m ρ) c _ _ _ _
    Cert.ReferenceIdeal.Facts₀.bcast_S50000_S50000x1_0 Cert.ReferenceIdeal.Facts₀.bcast_S50000x1_S50000x128_0_1 Cert.ReferenceIdeal.Facts₀.bcast_S128_S1x128_1 Cert.ReferenceIdeal.Facts₀.bcast_S1x128_S50000x128_0_1 Cert.ReferenceIdeal.Facts₀.bcast_S_S50000x128
    shapeCasts_S50000_S50000x1 shapeCasts_S128_S1x128
    (aggregate2 m ρ c) ((at6_v47 m ρ c).trans (product2 m ρ c)) (column2 m ρ c) (row2 m ρ c)).trans rfl)

/-! ## Layer 3 -/

/-- The layer's dense product, written by region 4: the host's product of the layer's input and its weight. -/
theorem product3 (c : Dev nD) : W8 m ρ c (Proc.devRef .tc main_v64) = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W8_arr m ρ c 2).trans ((Cert.KernelIdeal.Dense4.result (V7 m ρ) c _ _ (output2 m ρ c) (at7_arg6 m ρ c)).trans rfl)

/-- The messages gathered along the edges, weighted and summed into their destination rows. -/
theorem aggregate3 (c : Dev nD) : W9 m ρ c (Proc.devRef .tc main_v77) = val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W8 m ρ c) (Proc.devRef .tc main_v77) = _
  after_results_simp
  rw [(at8_v1 m ρ c).trans (source m ρ c), (at8_v3 m ρ c).trans (target m ρ c),
    (at8_v28 m ρ c).trans (weight m ρ c), product3 m ρ c]
  rfl

/-- The self-loop scale as a column. -/
theorem column3 (c : Dev nD) :
    W9 m ρ c (Proc.devRef .tc main_v78) = shapeCast S50000x1 (val_main_v147 (F := Ideal) (m ((c : Thread nD τ).loc main_arg1))) shapeCasts_S50000_S50000x1 := by
  show StableHlo.after hostOps5 (W8 m ρ c) (Proc.devRef .tc main_v78) = _
  after_results
  rw [(at8_v29 m ρ c).trans (selfScale m ρ c)]
  rfl

/-- The bias as a row. -/
theorem row3 (c : Dev nD) : W9 m ρ c (Proc.devRef .tc main_v79) = shapeCast S1x64 (m ((c : Thread nD τ).loc main_arg7)) shapeCasts_S64_S1x64 := by
  show StableHlo.after hostOps5 (W8 m ρ c) (Proc.devRef .tc main_v79) = _
  after_results
  rw [at8_arg7 m ρ c]
  rfl

/-- The layer's output, written by region 5: the reference's layer 3 of the argument arrays. -/
theorem output3 (c : Dev nD) : W10 m ρ c (Proc.devRef .tc main_v80) = val_main_v154 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W10_arr m ρ c 4).trans ((Cert.KernelIdeal.Combine5.result (V9 m ρ) c _ _ _ _
    Cert.ReferenceIdeal.Facts₀.bcast_S50000_S50000x1_0 Cert.ReferenceIdeal.Facts₀.bcast_S50000x1_S50000x64_0_1 Cert.ReferenceIdeal.Facts₀.bcast_S64_S1x64_1 Cert.ReferenceIdeal.Facts₀.bcast_S1x64_S50000x64_0_1
    shapeCasts_S50000_S50000x1 shapeCasts_S64_S1x64
    (aggregate3 m ρ c) ((at9_v64 m ρ c).trans (product3 m ρ c)) (column3 m ρ c) (row3 m ρ c)).trans rfl)

end Cert.KernelIdeal.Whole

end
-- ==== Proof.lean ====
/-
  Three graph-convolution layers, tiled and fused by hand, against their plain reference, on the extended reals.

  Both programs compute, for node features x, an edge list and three weight / bias pairs,
      h ↦ A · (h W) + diag(1/deg) · (h W) + b
  three times, with a rectifier after the first two, where A sums along every edge the source row weighted by
  (deg src · deg dst)^(-1/2) into the target row and deg counts a node's incoming edges and itself.  The kernel program
  computes the normalisation once, each dense product in a region tiled over blocks of 5000 rows with operands rounded
  to bfloat16, the gather and the scatter-add on the host, and the combination with scale, bias and rectifier in a
  second row-tiled region; the reference recomputes the normalisation in every layer and does everything on the host.
  On the extended reals a change of float format is the identity and a row block of a product is the product's row
  block, so the two programs are the same operations applied to the same values in the same order: no law of
  arithmetic is used, and the finiteness of the inputs is never opened.

  The frames of the two kernel programs are the generated ones; the reference's frame is its generated run with the
  result dropped; nothing was rewritten by the idealisation, so there is nothing to preserve.  For the value: the
  kernel program's run names every buffer at the last segment boundary (Proof/KernelRun.lean); that boundary's result
  buffer is walked back through the six regions and four host stretches to the reference's last stage of the argument
  arrays (Proof/Layers.lean, over Proof/Dense*.lean, Proof/Combine*.lean and Proof/Kept.lean); the reference's run ends
  at that stage by its generated read-back.
-/
import proofs.«179435_j14259291423189_1_alg».proof.Defs
import proofs.«179435_j14259291423189_1_alg».proof.Proof.Gen.Kernel
import proofs.«179435_j14259291423189_1_alg».proof.Proof.Gen.Kernel.Frame
import proofs.«179435_j14259291423189_1_alg».proof.Proof.Gen.KernelIdeal
import proofs.«179435_j14259291423189_1_alg».proof.Proof.Gen.KernelIdeal.Frame
import proofs.«179435_j14259291423189_1_alg».proof.Proof.Gen.ReferenceIdeal
import proofs.«179435_j14259291423189_1_alg».proof.Proof.Gen.ReferenceIdeal.Run
import proofs.«179435_j14259291423189_1_alg».proof.Proof.Gen.ReferenceIdeal.Read
import proofs.«179435_j14259291423189_1_alg».proof.Proof.Gen.Pre_finite_inputs
import proofs.«179435_j14259291423189_1_alg».proof.Proof.KernelRun
import proofs.«179435_j14259291423189_1_alg».proof.Proof.Layers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the argument arrays in their result buffers. -/
theorem algebraic : Cert.algebraic_KernelIdeal_ReferenceIdeal := by
  intro m ρ m' ρ' _ hagree
  refine ⟨fun c => Cert.ReferenceIdeal.Read.val_main_v154 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.output3 m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v154_eq]
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
